-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S65x64 : Shape := ⟨2, ![65, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S65x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S65x64 .f32 := Host.absf main_arg5
  let main_cst_6 : FVec F S_ .f32 := constant S_ .f32 0x7F800000#32
  let main_v20 : FVec F S65x64 .f32 := broadcastInDim S65x64 ![] bcast_S_S65x64 main_cst_6
  let main_v21 : IVec S65x64 1 := cmpf .olt main_v19 main_v20
  let main_c_7 : IVec S_ 1 := constantI S_ 1 1#1
  let main_v22 : IVec S_ 1 := (fun x v => Host.reduce IntOp.andi x v reducesTo_S65x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1000000 32) (main_arg2 : FVec F S1000000 .f32) (main_arg3 : FVec F S65x64 .f32) (main_arg4 : FVec F S64 .f32) (main_arg5 : FVec F S65x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S65x64 .f32 := Host.absf main_arg3
  let main_cst_2 : FVec F S_ .f32 := constant S_ .f32 0x7F800000#32
  let main_v10 : FVec F S65x64 .f32 := broadcastInDim S65x64 ![] bcast_S_S65x64 main_cst_2
  let main_v11 : IVec S65x64 1 := cmpf .olt main_v9 main_v10
  let main_c_3 : IVec S_ 1 := constantI S_ 1 1#1
  let main_v12 : IVec S_ 1 := (fun x v => Host.reduce IntOp.andi x v reducesTo_S65x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S65x64 : Shape := ⟨2, ![65, 64]⟩
abbrev S64 : Shape := ⟨1, ![64]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S64x64 : Shape := ⟨2, ![64, 64]⟩
abbrev S1x64 : Shape := ⟨2, ![1, 64]⟩
abbrev S10000x64 : Shape := ⟨2, ![10000, 64]⟩
abbrev S1000000x64 : Shape := ⟨2, ![1000000, 64]⟩
abbrev S8000x64 : Shape := ⟨2, ![8000, 64]⟩
abbrev S8000x1 : Shape := ⟨2, ![8000, 1]⟩
abbrev S100000x1 : Shape := ⟨2, ![100000, 1]⟩

abbrev nBuf : Space → Nat
  | .hbm => 79
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S65x64, .f32⟩
  | .hbm, ⟨4, _⟩ => ⟨S64, .f32⟩
  | .hbm, ⟨5, _⟩ => ⟨S65x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S1x1000000, .i32⟩
  | .hbm, ⟨22, _⟩ => ⟨S1000000, .i32⟩
  | .hbm, ⟨23, _⟩ => ⟨S1x1000000, .i32⟩
  | .hbm, ⟨24, _⟩ => ⟨S1000000, .i32⟩
  | .hbm, ⟨25, _⟩ => ⟨S64x64, .f32⟩
  | .hbm, ⟨26, _⟩ => ⟨S1x64, .f32⟩
  | .hbm, ⟨27, _⟩ => ⟨S1x64, .f32⟩
  | .hbm, ⟨28, _⟩ => ⟨S100000x64, .bf16⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .bf16⟩
  | .hbm, ⟨38, _⟩ => ⟨S1000000x1, .f32⟩
  | .hbm, ⟨39, _⟩ => ⟨S1000000x64, .f32⟩
  | .hbm, ⟨40, _⟩ => ⟨S_, .f32⟩
  | .hbm, ⟨41, _⟩ => ⟨S100000x64, .f32⟩
  | .hbm, ⟨42, _⟩ => ⟨S1000000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S1x1000000, .i32⟩
  | .hbm, ⟨51, _⟩ => ⟨S1000000, .i32⟩
  | .hbm, ⟨52, _⟩ => ⟨S1x1000000, .i32⟩
  | .hbm, ⟨53, _⟩ => ⟨S1000000, .i32⟩
  | .hbm, ⟨54, _⟩ => ⟨S64x64, .f32⟩
  | .hbm, ⟨55, _⟩ => ⟨S1x64, .f32⟩
  | .hbm, ⟨56, _⟩ => ⟨S1x64, .f32⟩
  | .hbm, ⟨57, _⟩ => ⟨S100000x64, .bf16⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .bf16⟩
  | .hbm, ⟨67, _⟩ => ⟨S1000000x1, .f32⟩
  | .hbm, ⟨68, _⟩ => ⟨S1000000x64, .f32⟩
  | .hbm, ⟨69, _⟩ => ⟨S_, .f32⟩
  | .hbm, ⟨70, _⟩ => ⟨S100000x64, .f32⟩
  | .hbm, ⟨71, _⟩ => ⟨S1000000x1, .i32⟩
  | .hbm, ⟨72, _⟩ => ⟨S100000x64, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S8000x64, .bf16⟩
  | .local _ .vmem, ⟨6, _⟩ => ⟨S8000x64, .bf16⟩
  | .local _ .vmem, ⟨7, _⟩ => ⟨S8000x1, .f32⟩
  | .local _ .vmem, ⟨8, _⟩ => ⟨S8000x1, .f32⟩
  | .local _ .vmem, ⟨9, _⟩ => ⟨S1x64, .f32⟩
  | .local _ .vmem, ⟨10, _⟩ => ⟨S1x64, .f32⟩
  | .local _ .vmem, ⟨11, _⟩ => ⟨S8000x64, .f32⟩
  | .local _ .vmem, ⟨12, _⟩ => ⟨S8000x64, .f32⟩
  | .local _ .vmem, ⟨13, _⟩ => ⟨S10000x64, .f32⟩
  | .local _ .vmem, ⟨14, _⟩ => ⟨S10000x64, .f32⟩
  | .local _ .vmem, ⟨15, _⟩ => ⟨S64x64, .f32⟩
  | .local _ .vmem, ⟨16, _⟩ => ⟨S10000x64, .bf16⟩
  | .local _ .vmem, ⟨17, _⟩ => ⟨S10000x64, .bf16⟩
  | .local _ .vmem, ⟨18, _⟩ => ⟨S8000x64, .bf16⟩
  | .local _ .vmem, ⟨19, _⟩ => ⟨S8000x64, .bf16⟩
  | .local _ .vmem, ⟨20, _⟩ => ⟨S8000x1, .f32⟩
  | .local _ .vmem, ⟨21, _⟩ => ⟨S8000x1, .f32⟩
  | .local _ .vmem, ⟨22, _⟩ => ⟨S1x64, .f32⟩
  | .local _ .vmem, ⟨23, _⟩ => ⟨S1x64, .f32⟩
  | .local _ .vmem, ⟨24, _⟩ => ⟨S8000x64, .f32⟩
  | .local _ .vmem, ⟨25, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call1_cst : Ref sig .tc := ⟨.hbm, 76, rfl⟩
abbrev main_call1_v0 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1000000_S1x1000000_1_0 : S2x1000000.Slices ![1, 0] S1x1000000
  shapeCasts_S1x1000000_S1000000 : S1x1000000.ShapeCasts S1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  slices_S2x1000000_S1x1000000_0_0 : S2x1000000.Slices ![0, 0] S1x1000000
  slices_S65x64_S64x64_0_0 : S65x64.Slices ![0, 0] S64x64
  slices_S65x64_S1x64_64_0 : S65x64.Slices ![64, 0] S1x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S10000x64_S10000x64_0_0 : (Rect.unit (s := S10000x64) ![0, 0] S10000x64.size inb_S10000x64_S10000x64_0_0).PackedRows (EltTy.packing .bf16)
  shapeCasts_S1000000_S1000000x1 : S1000000.ShapeCasts S1000000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S10000x64_S10000x64 : S10000x64.ShapeCasts S10000x64
  scatter_S100000_S1000000x1_S1000000_n_0_0_1_wf : ScatterDims.WF S100000 S1000000x1 S1000000 [] [0] [0] 1
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1000000x64.size a
  hwx1_0 : ∀ i : grid1.Coords, EltTy.bits .bf16 = 32 ∨ (Rect.block (s := S1000000x64) S8000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S1000000x64.size a
  hwx1_4 : ∀ i : grid1.Coords, EltTy.bits .f32 = 32 ∨ (Rect.block (s := S1000000x64) S8000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .bf16 = 32 ∨ (Rect.block (s := S100000x64) S10000x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1000000x64.size a
  hwx3_0 : ∀ i : grid3.Coords, EltTy.bits .bf16 = 32 ∨ (Rect.block (s := S1000000x64) S8000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S1000000x1.size a
  hwx3_1 : ∀ i : grid3.Coords, EltTy.bits .f32 = 32 ∨ (Rect.block (s := S1000000x1) S8000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x64.size a ≤ S1000000x64.size a
  hwx3_4 : ∀ i : grid3.Coords, EltTy.bits .f32 = 32 ∨ (Rect.block (s := S1000000x64) S8000x64.size (cc3_transform_4 i) (hinb3_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S8000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v33) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S8000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S65x64 : Shape := ⟨2, ![65, 64]⟩
abbrev S64 : Shape := ⟨1, ![64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1000000x65 : Shape := ⟨2, ![1000000, 65]⟩
abbrev S1x64 : Shape := ⟨2, ![1, 64]⟩
abbrev S100000 : Shape := ⟨1, ![100000]⟩
abbrev S100000x1 : Shape := ⟨2, ![100000, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S65x64, .f32⟩
  | .hbm, ⟨4, _⟩ => ⟨S64, .f32⟩
  | .hbm, ⟨5, _⟩ => ⟨S65x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S1000000x1, .f32⟩
  | .hbm, ⟨21, _⟩ => ⟨S1000000x65, .f32⟩
  | .hbm, ⟨22, _⟩ => ⟨S1000000x64, .f32⟩
  | .hbm, ⟨23, _⟩ => ⟨S1x64, .f32⟩
  | .hbm, ⟨24, _⟩ => ⟨S1000000x64, .f32⟩
  | .hbm, ⟨25, _⟩ => ⟨S1000000x64, .f32⟩
  | .hbm, ⟨26, _⟩ => ⟨S_, .f32⟩
  | .hbm, ⟨27, _⟩ => ⟨S1000000x64, .f32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S_, .f32⟩
  | .hbm, ⟨34, _⟩ => ⟨S1000000, .f32⟩
  | .hbm, ⟨35, _⟩ => ⟨S_, .f32⟩
  | .hbm, ⟨36, _⟩ => ⟨S100000, .f32⟩
  | .hbm, ⟨37, _⟩ => ⟨S1000000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S1x1000000, .i32⟩
  | .hbm, ⟨49, _⟩ => ⟨S1000000, .i32⟩
  | .hbm, ⟨50, _⟩ => ⟨S1x1000000, .i32⟩
  | .hbm, ⟨51, _⟩ => ⟨S1000000, .i32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x64, .f32⟩
  | .hbm, ⟨61, _⟩ => ⟨S1000000x1, .f32⟩
  | .hbm, ⟨62, _⟩ => ⟨S1000000x65, .f32⟩
  | .hbm, ⟨63, _⟩ => ⟨S1000000x64, .f32⟩
  | .hbm, ⟨64, _⟩ => ⟨S1x64, .f32⟩
  | .hbm, ⟨65, _⟩ => ⟨S1000000x64, .f32⟩
  | .hbm, ⟨66, _⟩ => ⟨S1000000x64, .f32⟩
  | .hbm, ⟨67, _⟩ => ⟨S_, .f32⟩
  | .hbm, ⟨68, _⟩ => ⟨S1000000x64, .f32⟩
  | .hbm, ⟨69, _⟩ => ⟨S1000000x64, .f32⟩
  | .hbm, ⟨70, _⟩ => ⟨S_, .f32⟩
  | .hbm, ⟨71, _⟩ => ⟨S100000x64, .f32⟩
  | .hbm, ⟨72, _⟩ => ⟨S1000000x1, .i32⟩
  | .hbm, ⟨73, _⟩ => ⟨S100000x64, .f32⟩
  | .hbm, ⟨74, _⟩ => ⟨S_, .f32⟩
  | .hbm, ⟨75, _⟩ => ⟨S1000000, .f32⟩
  | .hbm, ⟨76, _⟩ => ⟨S_, .f32⟩
  | .hbm, ⟨77, _⟩ => ⟨S100000, .f32⟩
  | .hbm, ⟨78, _⟩ => ⟨S1000000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call2_cst : Ref sig .tc := ⟨.hbm, 67, rfl⟩
abbrev main_call2_v0 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call3_cst : Ref sig .tc := ⟨.hbm, 86, rfl⟩
abbrev main_call3_v0 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x1_S1000000x65_d1 : Shape.Concatenates [S1000000x64, S1000000x1] S1000000x65 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x65_S65x64_S1000000x64_1_0_0_1_n_n_wf : DotDims.WF S1000000x65 S65x64 S1000000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x65_S65x64_S1000000x64_1_0_0_1_n_n : DotDims S1000000x65 S65x64 S1000000x64 where
  lhsContracting := [1]
  rhsContracting := [0]
  lhsNonContracting := [0]
  rhsNonContracting := [1]
  lhsBatch := []
  rhsBatch := []
  wf := dot_S1000000x65_S65x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.NamedRun.lean ====
/-
  The run of the idealized program with its result named.

  The program is twelve segments: host operations, the node-product kernel, host operations, the edge-message kernel,
  host operations, and the same again for the second layer. Every weakly fair execution from any memory with zero
  counters terminates without a fault; at the end every unscoped buffer of the TensorCore holds the contents that
  folding the segments over the launch memory gives. So the result buffer holds that fold's value at the result, and
  the seven argument arrays are as launched.
-/
import proofs.«142170_j34368328303045_2_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments end as launched. -/
theorem run : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v57 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.NamedRun

end
-- ==== Proof.EdgeSpec.lean ====
/-
  The two pieces of arithmetic of one message-passing layer, as functions of whole arrays over the extended reals.

  A layer sends along every edge e the message relu (x[src e] · W + a e · w + b), where W is the first 64 rows of the
  65-row weight matrix, w its last row, a the edge attribute and b the bias. Since picking a row commutes with a
  product taken row by row, the node-domain product Y = X · W may be formed first, over the 100000 nodes (`nodeProduct`),
  and the message of edge e is then relu (Y[src e] + a e · w + b) (`edgeMessage`): an operation on each entry separately.
-/
import Idealize.ShloMosaic.PureOps.Ideal
import Idealize.ShloMosaic.Lib.ValueIdx

noncomputable section

open scoped BigOperators

namespace Cert.Layer

open Idealize.ShloMosaic Idealize.ShloMosaic.ValueIdx

/-- The node-domain product: entry (n, c) is the sum over k < 64 of x (n, k) · w (k, c). -/
def nodeProduct (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (i 0) k) * w (ix2 k (i 1))

/-- The message of an edge from the gathered product row: entry (e, c) is the larger of
    (y (e, c) + a (e, 0) · w (0, c)) + b (0, c) and the f32 word zero. -/
def edgeMessage (y : (⟨2, ![1000000, 64]⟩ : Shape).Idx → EReal) (a : (⟨2, ![1000000, 1]⟩ : Shape).Idx → EReal)
    (w b : (⟨2, ![1, 64]⟩ : Shape).Idx → EReal) : (⟨2, ![1000000, 64]⟩ : Shape).Idx → EReal :=
  fun i => max (y i + a (ix2 (i 0) (0 : Fin 1)) * w (ix2 (0 : Fin 1) (i 1)) + b (ix2 (0 : Fin 1) (i 1)))
    (Ideal.ofBits .f32 0x00000000#32)

end Cert.Layer

end
-- ==== Proof.LayerTerms.lean ====
/-
  One message-passing layer as the idealized kernel program computes it, as a term over whole arrays.

  From the edge list (two rows of node numbers: sources, then destinations) the program forms the destination column
  and the source column (a negative number is first moved up by the number of nodes). The count of edges arriving at
  each node is a sum of ones scattered to the destinations; its maximum with one is `countMax`, and `countInv` is one
  divided by it. A layer multiplies the node features by the first 64 rows of the weight matrix (`nodeProduct`),
  gathers the product rows at the sources, forms the edge messages (`edgeMessage`) with the last weight row and the
  bias, sums the messages arriving at each node (a scatter-add into zeros), multiplies each node's sum by `countInv`
  and keeps the larger of that and zero.
-/
import proofs.«142170_j34368328303045_2_alg».proof.Proof.Gen.KernelIdeal
import proofs.«142170_j34368328303045_2_alg».proof.Proof.EdgeSpec
import Idealize.ShloMosaic.PureOps.Ideal

noncomputable section

namespace Cert.KernelIdeal.Terms

open Idealize.ShloMosaic Idealize.ShloMosaic.TcCoe Idealize.SL.Sem
open Cert.KernelIdeal Cert.KernelIdeal.Gen

/-- The destination node of every edge: row 1 of the edge list. -/
def dstVec (ei : IVec S2x1000000 32) : IVec S1000000 32 :=
  shapeCast S1000000 (extractStridedSlice S1x1000000 ![1, 0] ei slices_S2x1000000_S1x1000000_1_0) shapeCasts_S1x1000000_S1000000

/-- The source node of every edge: row 0 of the edge list. -/
def srcVec (ei : IVec S2x1000000 32) : IVec S1000000 32 :=
  shapeCast S1000000 (extractStridedSlice S1x1000000 ![0, 0] ei slices_S2x1000000_S1x1000000_0_0) shapeCasts_S1x1000000_S1000000

/-- A vector of node numbers as the one-column index array a gather or scatter takes. -/
def asCol (v : IVec S1000000 32) : IVec S1000000x1 32 :=
  broadcastInDim S1000000x1 ![0] bcast_S1000000_S1000000x1_0 v

/-- Node numbers with the negative ones moved up by the number of nodes, as a column. -/
def wrapCol (s : IVec S1000000 32) : IVec S1000000x1 32 :=
  asCol (select (cmpi .slt s (broadcastInDim S1000000 ![] bcast_S_S1000000 (constantI S_ 32 0#32)))
    (addi s (broadcastInDim S1000000 ![] bcast_S_S1000000 (constantI S_ 32 100000#32))) s)

/-- The f32 word one at every node. -/
def onesN : FVec Ideal S100000 .f32 := broadcastInDim S100000 ![] bcast_S_S100000 (constant (F := Ideal) S_ .f32 0x3F800000#32)

/-- The f32 word zero at every entry of a node-feature array. -/
def zerosNC : FVec Ideal S100000x64 .f32 := broadcastInDim S100000x64 ![] bcast_S_S100000x64 (constant (F := Ideal) S_ .f32 0x00000000#32)

/-- The number of edges arriving at each node, or one where none does. -/
def countMax (d : IVec S1000000 32) : FVec Ideal S100000 .f32 :=
  maximumf (Host.scatterAdd scatter_S100000_S1000000x1_S1000000_n_0_0_1
    (broadcastInDim S100000 ![] bcast_S_S100000 (constant (F := Ideal) S_ .f32 0x00000000#32)) (asCol d)
    (broadcastInDim S1000000 ![] bcast_S_S1000000 (constant (F := Ideal) S_ .f32 0x3F800000#32))) onesN

/-- One divided by `countMax`. -/
def countInv (d : IVec S1000000 32) : FVec Ideal S100000 .f32 := Host.divf onesN (countMax d)

/-- A per-node value repeated across the 64 features of the node. -/
def perNode (v : FVec Ideal S100000 .f32) : FVec Ideal S100000x64 .f32 :=
  broadcastInDim S100000x64 ![0, 1] bcast_S100000x1_S100000x64_0_1 (broadcastInDim S100000x1 ![0] bcast_S100000_S100000x1_0 v)

/-- The first 64 rows of a weight matrix. -/
def wTop (w : FVec Ideal S65x64 .f32) : FVec Ideal S64x64 .f32 := extractStridedSlice S64x64 ![0, 0] w slices_S65x64_S64x64_0_0

/-- The last row of a weight matrix. -/
def wLast (w : FVec Ideal S65x64 .f32) : FVec Ideal S1x64 .f32 := extractStridedSlice S1x64 ![64, 0] w slices_S65x64_S1x64_64_0

/-- The bias as a one-row array. -/
def biasRow (b : FVec Ideal S64 .f32) : FVec Ideal S1x64 .f32 := shapeCast S1x64 b shapeCasts_S64_S1x64

/-- The edge attribute as a one-column array. -/
def attrCol (ea : FVec Ideal S1000000 .f32) : FVec Ideal S1000000x1 .f32 := shapeCast S1000000x1 ea shapeCasts_S1000000_S1000000x1

/-- The product rows gathered at the sources. -/
def gathered (y : FVec Ideal S100000x64 .bf16) (s : IVec S1000000 32) : FVec Ideal S1000000x64 .bf16 :=
  Host.gather gather_S100000x64_S1000000x1_S1000000x64_1_0_n_n_0_1_164 y (wrapCol s)

/-- The messages summed at their destinations and scaled by `countInv`. -/
def aggregate (msg : FVec Ideal S1000000x64 .f32) (d : IVec S1000000 32) (cinv : FVec Ideal S100000 .f32) : FVec Ideal S100000x64 .f32 :=
  mulf (Host.scatterAdd scatter_S100000x64_S1000000x1_S1000000x64_1_0_0_1 zerosNC (asCol d) msg) (perNode cinv)

/-- One layer as the kernel program computes it. -/
def layer (x : FVec Ideal S100000x64 .f32) (ei : IVec S2x1000000 32) (ea : FVec Ideal S1000000 .f32) (w : FVec Ideal S65x64 .f32)
    (b : FVec Ideal S64 .f32) : FVec Ideal S100000x64 .f32 :=
  maximumf (aggregate (Cert.Layer.edgeMessage (gathered (Cert.Layer.nodeProduct x (wTop w)) (srcVec ei)) (attrCol ea)
    (wLast w) (biasRow b)) (dstVec ei) (countInv (dstVec ei))) zerosNC

end Cert.KernelIdeal.Terms

end
-- ==== Proof.HostStages.lean ====
/-
  What each stretch of host operations of the idealized kernel program leaves in the buffers that matter, from any
  contents W before the stretch: the buffers it computes, as the layer's terms of the contents it reads, and the
  buffers it does not write, unchanged. Each is read off by running the stretch's operations in order.
-/
import proofs.«142170_j34368328303045_2_alg».proof.Proof.Gen.KernelIdeal.Launch
import proofs.«142170_j34368328303045_2_alg».proof.Proof.LayerTerms
import Idealize.ShloMosaic.Lib.StableHlo.Run

set_option maxRecDepth 16384

noncomputable section

namespace Cert.KernelIdeal.HostStage

open Idealize.ShloMosaic Idealize.ShloMosaic.TcCoe Idealize.SL.Sem Idealize.ShloMosaic.StableHlo
open Cert.KernelIdeal Cert.KernelIdeal.Gen Cert.KernelIdeal.Terms

variable (W : Valuation τ sig (Elt Ideal))

theorem s0_v9 : StableHlo.after (hostOps0 (F := Ideal)) W (Proc.devRef .tc main_v9) = countInv (dstVec (W (Proc.devRef .tc main_arg1))) := by
  dsimp only [hostOps0]; after_results; rfl
theorem s0_v11 : StableHlo.after (hostOps0 (F := Ideal)) W (Proc.devRef .tc main_v11) = srcVec (W (Proc.devRef .tc main_arg1)) := by
  dsimp only [hostOps0]; after_results; rfl
theorem s0_v13 : StableHlo.after (hostOps0 (F := Ideal)) W (Proc.devRef .tc main_v13) = dstVec (W (Proc.devRef .tc main_arg1)) := by
  dsimp only [hostOps0]; after_results; rfl
theorem s0_v14 : StableHlo.after (hostOps0 (F := Ideal)) W (Proc.devRef .tc main_v14) = wTop (W (Proc.devRef .tc main_arg3)) := by
  dsimp only [hostOps0]; after_results; rfl
theorem s0_v15 : StableHlo.after (hostOps0 (F := Ideal)) W (Proc.devRef .tc main_v15) = wLast (W (Proc.devRef .tc main_arg3)) := by
  dsimp only [hostOps0]; after_results; rfl
theorem s0_v16 : StableHlo.after (hostOps0 (F := Ideal)) W (Proc.devRef .tc main_v16) = biasRow (W (Proc.devRef .tc main_arg4)) := by
  dsimp only [hostOps0]; after_results; rfl
theorem s0_arg0 : StableHlo.after (hostOps0 (F := Ideal)) W (Proc.devRef .tc main_arg0) = W (Proc.devRef .tc main_arg0) := by
  dsimp only [hostOps0]; after_results
theorem s0_arg1 : StableHlo.after (hostOps0 (F := Ideal)) W (Proc.devRef .tc main_arg1) = W (Proc.devRef .tc main_arg1) := by
  dsimp only [hostOps0]; after_results
theorem s0_arg2 : StableHlo.after (hostOps0 (F := Ideal)) W (Proc.devRef .tc main_arg2) = W (Proc.devRef .tc main_arg2) := by
  dsimp only [hostOps0]; after_results
theorem s0_arg5 : StableHlo.after (hostOps0 (F := Ideal)) W (Proc.devRef .tc main_arg5) = W (Proc.devRef .tc main_arg5) := by
  dsimp only [hostOps0]; after_results
theorem s0_arg6 : StableHlo.after (hostOps0 (F := Ideal)) W (Proc.devRef .tc main_arg6) = W (Proc.devRef .tc main_arg6) := by
  dsimp only [hostOps0]; after_results

theorem s1_v24 : StableHlo.after (hostOps1 (F := Ideal)) W (Proc.devRef .tc main_v24) = gathered (W (Proc.devRef .tc main_v17)) (W (Proc.devRef .tc main_v11)) := by
  dsimp only [hostOps1]; after_results; rfl
theorem s1_v25 : StableHlo.after (hostOps1 (F := Ideal)) W (Proc.devRef .tc main_v25) = attrCol (W (Proc.devRef .tc main_arg2)) := by
  dsimp only [hostOps1]; after_results; rfl
theorem s1_v15 : StableHlo.after (hostOps1 (F := Ideal)) W (Proc.devRef .tc main_v15) = W (Proc.devRef .tc main_v15) := by
  dsimp only [hostOps1]; after_results
theorem s1_v16 : StableHlo.after (hostOps1 (F := Ideal)) W (Proc.devRef .tc main_v16) = W (Proc.devRef .tc main_v16) := by
  dsimp only [hostOps1]; after_results
theorem s1_v13 : StableHlo.after (hostOps1 (F := Ideal)) W (Proc.devRef .tc main_v13) = W (Proc.devRef .tc main_v13) := by
  dsimp only [hostOps1]; after_results
theorem s1_v9 : StableHlo.after (hostOps1 (F := Ideal)) W (Proc.devRef .tc main_v9) = W (Proc.devRef .tc main_v9) := by
  dsimp only [hostOps1]; after_results
theorem s1_arg1 : StableHlo.after (hostOps1 (F := Ideal)) W (Proc.devRef .tc main_arg1) = W (Proc.devRef .tc main_arg1) := by
  dsimp only [hostOps1]; after_results
theorem s1_arg2 : StableHlo.after (hostOps1 (F := Ideal)) W (Proc.devRef .tc main_arg2) = W (Proc.devRef .tc main_arg2) := by
  dsimp only [hostOps1]; after_results
theorem s1_arg5 : StableHlo.after (hostOps1 (F := Ideal)) W (Proc.devRef .tc main_arg5) = W (Proc.devRef .tc main_arg5) := by
  dsimp only [hostOps1]; after_results
theorem s1_arg6 : StableHlo.after (hostOps1 (F := Ideal)) W (Proc.devRef .tc main_arg6) = W (Proc.devRef .tc main_arg6) := by
  dsimp only [hostOps1]; after_results

theorem s2_v32 : StableHlo.after (hostOps2 (F := Ideal)) W (Proc.devRef .tc main_v32) = aggregate (W (Proc.devRef .tc main_v26)) (W (Proc.devRef .tc main_v13)) (W (Proc.devRef .tc main_v9)) := by
  dsimp only [hostOps2]; after_results; rfl
theorem s2_v9 : StableHlo.after (hostOps2 (F := Ideal)) W (Proc.devRef .tc main_v9) = W (Proc.devRef .tc main_v9) := by
  dsimp only [hostOps2]; after_results
theorem s2_arg1 : StableHlo.after (hostOps2 (F := Ideal)) W (Proc.devRef .tc main_arg1) = W (Proc.devRef .tc main_arg1) := by
  dsimp only [hostOps2]; after_results
theorem s2_arg2 : StableHlo.after (hostOps2 (F := Ideal)) W (Proc.devRef .tc main_arg2) = W (Proc.devRef .tc main_arg2) := by
  dsimp only [hostOps2]; after_results
theorem s2_arg5 : StableHlo.after (hostOps2 (F := Ideal)) W (Proc.devRef .tc main_arg5) = W (Proc.devRef .tc main_arg5) := by
  dsimp only [hostOps2]; after_results
theorem s2_arg6 : StableHlo.after (hostOps2 (F := Ideal)) W (Proc.devRef .tc main_arg6) = W (Proc.devRef .tc main_arg6) := by
  dsimp only [hostOps2]; after_results

theorem s2_1_v33 : StableHlo.after (hostOps2_1 (F := Ideal)) W (Proc.devRef .tc main_v33) = maximumf (W (Proc.devRef .tc main_v32)) zerosNC := by
  dsimp only [hostOps2_1]; after_results; rfl
theorem s2_1_v9 : StableHlo.after (hostOps2_1 (F := Ideal)) W (Proc.devRef .tc main_v9) = W (Proc.devRef .tc main_v9) := by
  dsimp only [hostOps2_1]; after_results
theorem s2_1_arg1 : StableHlo.after (hostOps2_1 (F := Ideal)) W (Proc.devRef .tc main_arg1) = W (Proc.devRef .tc main_arg1) := by
  dsimp only [hostOps2_1]; after_results
theorem s2_1_arg2 : StableHlo.after (hostOps2_1 (F := Ideal)) W (Proc.devRef .tc main_arg2) = W (Proc.devRef .tc main_arg2) := by
  dsimp only [hostOps2_1]; after_results
theorem s2_1_arg5 : StableHlo.after (hostOps2_1 (F := Ideal)) W (Proc.devRef .tc main_arg5) = W (Proc.devRef .tc main_arg5) := by
  dsimp only [hostOps2_1]; after_results
theorem s2_1_arg6 : StableHlo.after (hostOps2_1 (F := Ideal)) W (Proc.devRef .tc main_arg6) = W (Proc.devRef .tc main_arg6) := by
  dsimp only [hostOps2_1]; after_results

theorem s2_2_v35 : StableHlo.after (hostOps2_2 (F := Ideal)) W (Proc.devRef .tc main_v35) = srcVec (W (Proc.devRef .tc main_arg1)) := by
  dsimp only [hostOps2_2]; after_results; rfl
theorem s2_2_v37 : StableHlo.after (hostOps2_2 (F := Ideal)) W (Proc.devRef .tc main_v37) = dstVec (W (Proc.devRef .tc main_arg1)) := by
  dsimp only [hostOps2_2]; after_results; rfl
theorem s2_2_v38 : StableHlo.after (hostOps2_2 (F := Ideal)) W (Proc.devRef .tc main_v38) = wTop (W (Proc.devRef .tc main_arg5)) := by
  dsimp only [hostOps2_2]; after_results; rfl
theorem s2_2_v39 : StableHlo.after (hostOps2_2 (F := Ideal)) W (Proc.devRef .tc main_v39) = wLast (W (Proc.devRef .tc main_arg5)) := by
  dsimp only [hostOps2_2]; after_results; rfl
theorem s2_2_v40 : StableHlo.after (hostOps2_2 (F := Ideal)) W (Proc.devRef .tc main_v40) = biasRow (W (Proc.devRef .tc main_arg6)) := by
  dsimp only [hostOps2_2]; after_results; rfl
theorem s2_2_v33 : StableHlo.after (hostOps2_2 (F := Ideal)) W (Proc.devRef .tc main_v33) = W (Proc.devRef .tc main_v33) := by
  dsimp only [hostOps2_2]; after_results
theorem s2_2_arg2 : StableHlo.after (hostOps2_2 (F := Ideal)) W (Proc.devRef .tc main_arg2) = W (Proc.devRef .tc main_arg2) := by
  dsimp only [hostOps2_2]; after_results
theorem s2_2_v9 : StableHlo.after (hostOps2_2 (F := Ideal)) W (Proc.devRef .tc main_v9) = W (Proc.devRef .tc main_v9) := by
  dsimp only [hostOps2_2]; after_results

theorem s3_v48 : StableHlo.after (hostOps3 (F := Ideal)) W (Proc.devRef .tc main_v48) = gathered (W (Proc.devRef .tc main_v41)) (W (Proc.devRef .tc main_v35)) := by
  dsimp only [hostOps3]; after_results; rfl
theorem s3_v49 : StableHlo.after (hostOps3 (F := Ideal)) W (Proc.devRef .tc main_v49) = attrCol (W (Proc.devRef .tc main_arg2)) := by
  dsimp only [hostOps3]; after_results; rfl
theorem s3_v39 : StableHlo.after (hostOps3 (F := Ideal)) W (Proc.devRef .tc main_v39) = W (Proc.devRef .tc main_v39) := by
  dsimp only [hostOps3]; after_results
theorem s3_v40 : StableHlo.after (hostOps3 (F := Ideal)) W (Proc.devRef .tc main_v40) = W (Proc.devRef .tc main_v40) := by
  dsimp only [hostOps3]; after_results
theorem s3_v37 : StableHlo.after (hostOps3 (F := Ideal)) W (Proc.devRef .tc main_v37) = W (Proc.devRef .tc main_v37) := by
  dsimp only [hostOps3]; after_results
theorem s3_v9 : StableHlo.after (hostOps3 (F := Ideal)) W (Proc.devRef .tc main_v9) = W (Proc.devRef .tc main_v9) := by
  dsimp only [hostOps3]; after_results

theorem s4_v56 : StableHlo.after (hostOps4 (F := Ideal)) W (Proc.devRef .tc main_v56) = aggregate (W (Proc.devRef .tc main_v50)) (W (Proc.devRef .tc main_v37)) (W (Proc.devRef .tc main_v9)) := by
  dsimp only [hostOps4]; after_results; rfl

theorem s4_1_v57 : StableHlo.after (hostOps4_1 (F := Ideal)) W (Proc.devRef .tc main_v57) = maximumf (W (Proc.devRef .tc main_v56)) zerosNC := by
  dsimp only [hostOps4_1]; after_results; rfl

end Cert.KernelIdeal.HostStage

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.NodeProduct0.lean ====
/-
  The node-domain product kernel, read as a whole array.

  The kernel runs over ten blocks of 10000 rows. At block t it loads rows 10000 t … 10000 t + 9999 of X and all of the
  64 by 64 matrix W, multiplies them into a zero accumulator and stores the product as block t of Y. A change of
  float format is the identity on the extended reals, so entry (p, q) of the stored block is the sum over k of
  X (10000 t + p, k) · W (k, q): block t of the one array `Cert.Layer.nodeProduct X W`. The ten blocks tile Y, so
  after the kernel Y is that array, whatever X and W were when the kernel was entered.
-/
import proofs.«142170_j34368328303045_2_alg».proof.Proof.Gen.KernelIdeal.Frame
import proofs.«142170_j34368328303045_2_alg».proof.Proof.EdgeSpec
import proofs.«142170_j34368328303045_2_alg».proof.Proof.LibMatmulPlain
import Idealize.ShloMosaic.Lib.Pipeline.Value
import Idealize.ShloMosaic.Lib.ValueIdx

set_option maxRecDepth 16384

noncomputable section

open scoped BigOperators

namespace Cert.KernelIdeal.NodeProduct0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The stored block at (p, q): row p of the loaded X block against column q of W. -/
theorem payload_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  have e1 : shapeCast S64x64 x1 shapeCasts_S64x64_S64x64 = x1 := shapeCast_self x1 _
  unfold k0_pay1
  rw [e1]
  exact MatmulPlain.matmul_zero_apply (M := 10000) (K := 64) (N := 64) none (truncf .bf16 x0 bitsLt_bf16_f32)
    (truncf .bf16 x1 bitsLt_bf16_f32) (ix2 p q)

/-- The index maps over the grid: X's and Y's row blocks move together, block t is the t-th, and every other block
    coordinate is zero. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the arrays the kernel finds. -/
theorem flushed_eq (c : Dev nD) (t : Fin cfg0.N) :
    (dat0 V c).flushed 2 t
      = ((cfg0.win 2).blk t).view.read (Elt Ideal) (Cert.Layer.nodeProduct (V c main_arg0) (V c main_v14)) := by
  show (cfg0.win 2).cut (grid0.coords t) ((dat0 V c).after 2 t) = _
  rw [after0_2]
  unfold out0_2
  rw [View.canon_unit_zero zeros]
  simp only [View.ld_unit_zero (S := S10000x64) zeros, View.ld_unit_zero (S := S64x64) zeros]
  obtain ⟨e0, e1, e2, e3, e4, e5⟩ := index_facts t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = Cert.Layer.nodeProduct (V c main_arg0) (V c main_v14) (((cfg0.win 2).blk t).view.emb (ix2 p q))
  refine (payload_apply (iblk0 V c 0 t) (iblk0 V c 1 t) p q).trans ?_
  unfold Cert.Layer.nodeProduct
  refine Finset.sum_congr rfl fun k _ => ?_
  have hx : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 64 + 1 * k.val = k.val
      omega
  have hw : iblk0 V c 1 t (ix2 k q)
      = V c main_v14 (ix2 k ((((cfg0.win 2).blk t).view.emb (ix2 p q)) 1)) := by
    show V c main_v14 (((cfg0.win 1).blk t).view.emb (ix2 k q)) = _
    refine congrArg (V c main_v14) (funext fun a => Fin.ext ?_)
    match a with
    | ⟨0, _⟩ =>
      show win0_1.index t (0 : Fin 2) * 64 + 1 * k.val = k.val
      omega
    | ⟨1, _⟩ =>
      show win0_1.index t (1 : Fin 2) * 64 + 1 * q.val = win0_2.index t (1 : Fin 2) * 64 + 1 * q.val
      omega
  rw [hx, hw]

/-- An entry of Y lies in point t's block exactly when each coordinate lies in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v17).slice (win0_2.rect t)).set ↔ _
  rw [View.set_slice_whole, Rect.mem_set_unit]
  exact Iff.rfl

/-- The ten blocks tile Y: entry (n, c) lies in the block of the point whose block number is n / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the kernel, Y is the product of the X and W it was entered with. -/
theorem value (c : Dev nD) :
    (dat0 V c).arrAt 2 cfg0.N = Cert.Layer.nodeProduct (V c main_arg0) (V c main_v14) :=
  (dat0 V c).arrAt_eq_of_cover 2 _ (fun t _ => flushed_eq V c t) covered

end Cert.KernelIdeal.NodeProduct0

end
-- ==== Proof.EdgeMessage1.lean ====
/-
  The edge-message kernel, read as a whole array.

  The kernel runs over 125 blocks of 8000 edges. At block t it loads rows 8000 t … 8000 t + 7999 of the gathered
  product rows y and of the edge-attribute column a, and the two one-row arrays w (the edge weight row) and b (the
  bias); it stores, as block t of the output, the larger of (y + a · w) + b and zero, entry by entry, the column a
  and the rows w, b being broadcast across the block. Every entry of the stored block depends only on the entries
  of the inputs at its own row and column, so the block is block t of the one array `Cert.Layer.edgeMessage y a w b`,
  and since the 125 blocks tile the output, after the kernel the output is that array.
-/
import proofs.«142170_j34368328303045_2_alg».proof.Proof.Gen.KernelIdeal.Frame
import proofs.«142170_j34368328303045_2_alg».proof.Proof.EdgeSpec
import Idealize.ShloMosaic.Lib.Pipeline.Value
import Idealize.ShloMosaic.Lib.ValueIdx

set_option maxRecDepth 16384

noncomputable section

open scoped BigOperators

namespace Cert.KernelIdeal.EdgeMessage1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The stored block at (p, q) from the loaded blocks: the column a read at row p, the rows w and b at column q. -/
theorem payload_apply (x0 : Vec Ideal S8000x64 .bf16) (x1 : Vec Ideal S8000x1 .f32) (x2 x3 : Vec Ideal S1x64 .f32)
    (p : Fin 8000) (q : Fin 64) :
    k1_pay1 (F := Ideal) x0 x1 x2 x3 (ix2 p q)
      = max (x0 (ix2 p q) + x1 (ix2 p (0 : Fin 1)) * x2 (ix2 (0 : Fin 1) q) + x3 (ix2 (0 : Fin 1) q))
          (Ideal.ofBits .f32 0x00000000#32) := by
  have e0 : shapeCast S8000x64 x0 shapeCasts_S8000x64_S8000x64 = x0 := shapeCast_self x0 _
  have e1 : shapeCast S8000x1 x1 shapeCasts_S8000x1_S8000x1 = x1 := shapeCast_self x1 _
  have e2 : shapeCast S1x64 x2 shapeCasts_S1x64_S1x64 = x2 := shapeCast_self x2 _
  have e3 : shapeCast S1x64 x3 shapeCasts_S1x64_S1x64 = x3 := shapeCast_self x3 _
  have bcol : broadcastTo S8000x64 x1 broadcasts_S8000x1_S8000x64 (ix2 p q) = x1 (ix2 p (0 : Fin 1)) :=
    broadcastTo_apply x1 broadcasts_S8000x1_S8000x64 (ix2 p q) (ix2 p (0 : Fin 1))
      (fun a => by match a with | ⟨0, _⟩ => rfl | ⟨1, _⟩ => rfl)
  have brow (x : Vec Ideal S1x64 .f32) :
      broadcastTo S8000x64 x broadcasts_S1x64_S8000x64 (ix2 p q) = x (ix2 (0 : Fin 1) q) :=
    broadcastTo_apply x broadcasts_S1x64_S8000x64 (ix2 p q) (ix2 (0 : Fin 1) q)
      (fun a => by match a with | ⟨0, _⟩ => rfl | ⟨1, _⟩ => rfl)
  unfold k1_pay1
  rw [e0, e1, e2, e3]
  show max ((x0 (ix2 p q) + broadcastTo S8000x64 x1 broadcasts_S8000x1_S8000x64 (ix2 p q)
      * broadcastTo S8000x64 x2 broadcasts_S1x64_S8000x64 (ix2 p q))
      + broadcastTo S8000x64 x3 broadcasts_S1x64_S8000x64 (ix2 p q)) (Ideal.ofBits .f32 0x00000000#32) = _
  rw [bcol, brow x2, brow x3]

/-- The index maps over the grid: the row blocks of y, a and the output move together, and every other block
    coordinate is zero. -/
theorem index_facts : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 ∧ win1_4.index t (1 : Fin 2) = 0 :=
  (by decide +kernel : ∀ t : Fin grid1.N, _)

/-- Every one of the 125 row blocks is some point's. -/
theorem index_onto : ∀ q0 : Fin 125, ∃ t : Fin cfg1.N, win1_4.index t = ![q0.val, 0] :=
  (by decide +kernel : ∀ q0 : Fin 125, ∃ t : Fin grid1.N, win1_4.index t = ![q0.val, 0])

/-- What point t writes back is block t of the message array of the arrays the kernel finds. -/
theorem flushed_eq (c : Dev nD) (t : Fin cfg1.N) :
    (dat1 V c).flushed 4 t = ((cfg1.win 4).blk t).view.read (Elt Ideal)
      (Cert.Layer.edgeMessage (V c main_v24) (V c main_v25) (V c main_v15) (V c main_v16)) := by
  show (cfg1.win 4).cut (grid1.coords t) ((dat1 V c).after 4 t) = _
  rw [after1_4]
  unfold out1_4
  rw [View.canon_unit_zero zeros]
  simp only [View.ld_unit_zero (S := S8000x64) zeros, View.ld_unit_zero (S := S8000x1) zeros,
    View.ld_unit_zero (S := S1x64) zeros]
  obtain ⟨e0, e1, e2, e3, e4, e5, e6, e7, e8⟩ := index_facts t
  funext j
  obtain ⟨p, q, rfl⟩ : ∃ (p : Fin 8000) (q : Fin 64), j = ix2 p q := ⟨j 0, j 1, eq_ix2 j⟩
  show k1_pay1 (F := Ideal) (iblk1 V c 0 t) (iblk1 V c 1 t) (iblk1 V c 2 t) (iblk1 V c 3 t) (ix2 p q)
    = Cert.Layer.edgeMessage (V c main_v24) (V c main_v25) (V c main_v15) (V c main_v16)
        (((cfg1.win 4).blk t).view.emb (ix2 p q))
  refine (payload_apply (iblk1 V c 0 t) (iblk1 V c 1 t) (iblk1 V c 2 t) (iblk1 V c 3 t) p q).trans ?_
  unfold Cert.Layer.edgeMessage
  have h0 : iblk1 V c 0 t (ix2 p q) = V c main_v24 (((cfg1.win 4).blk t).view.emb (ix2 p q)) := by
    show V c main_v24 (((cfg1.win 0).blk t).view.emb (ix2 p q)) = _
    refine congrArg (V c main_v24) (funext fun a => Fin.ext ?_)
    match a with
    | ⟨0, _⟩ =>
      show win1_0.index t (0 : Fin 2) * 8000 + 1 * p.val = win1_4.index t (0 : Fin 2) * 8000 + 1 * p.val
      omega
    | ⟨1, _⟩ =>
      show win1_0.index t (1 : Fin 2) * 64 + 1 * q.val = win1_4.index t (1 : Fin 2) * 64 + 1 * q.val
      omega
  have h1 : iblk1 V c 1 t (ix2 p (0 : Fin 1))
      = V c main_v25 (ix2 ((((cfg1.win 4).blk t).view.emb (ix2 p q)) 0) (0 : Fin 1)) := by
    show V c main_v25 (((cfg1.win 1).blk t).view.emb (ix2 p (0 : Fin 1))) = _
    refine congrArg (V c main_v25) (funext fun a => Fin.ext ?_)
    match a with
    | ⟨0, _⟩ =>
      show win1_1.index t (0 : Fin 2) * 8000 + 1 * p.val = win1_4.index t (0 : Fin 2) * 8000 + 1 * p.val
      omega
    | ⟨1, _⟩ =>
      show win1_1.index t (1 : Fin 2) * 1 + 1 * 0 = 0
      omega
  have h2 : iblk1 V c 2 t (ix2 (0 : Fin 1) q)
      = V c main_v15 (ix2 (0 : Fin 1) ((((cfg1.win 4).blk t).view.emb (ix2 p q)) 1)) := by
    show V c main_v15 (((cfg1.win 2).blk t).view.emb (ix2 (0 : Fin 1) q)) = _
    refine congrArg (V c main_v15) (funext fun a => Fin.ext ?_)
    match a with
    | ⟨0, _⟩ =>
      show win1_2.index t (0 : Fin 2) * 1 + 1 * 0 = 0
      omega
    | ⟨1, _⟩ =>
      show win1_2.index t (1 : Fin 2) * 64 + 1 * q.val = win1_4.index t (1 : Fin 2) * 64 + 1 * q.val
      omega
  have h3 : iblk1 V c 3 t (ix2 (0 : Fin 1) q)
      = V c main_v16 (ix2 (0 : Fin 1) ((((cfg1.win 4).blk t).view.emb (ix2 p q)) 1)) := by
    show V c main_v16 (((cfg1.win 3).blk t).view.emb (ix2 (0 : Fin 1) q)) = _
    refine congrArg (V c main_v16) (funext fun a => Fin.ext ?_)
    match a with
    | ⟨0, _⟩ =>
      show win1_3.index t (0 : Fin 2) * 1 + 1 * 0 = 0
      omega
    | ⟨1, _⟩ =>
      show win1_3.index t (1 : Fin 2) * 64 + 1 * q.val = win1_4.index t (1 : Fin 2) * 64 + 1 * q.val
      omega
  rw [h0, h1, h2, h3]

/-- An entry of the output lies in point t's block exactly when each coordinate lies in the block's range. -/
theorem mem_block (t : Fin cfg1.N) (i : S1000000x64.Idx) :
    i ∈ ((cfg1.win 4).blk t).view.set ↔ ∀ a : Fin 2, win1_4.index t a * S8000x64.size a ≤ (i a).val
      ∧ (i a).val < win1_4.index t a * S8000x64.size a + S8000x64.size a := by
  show i ∈ ((View.whole main_v26).slice (win1_4.rect t)).set ↔ _
  rw [View.set_slice_whole, Rect.mem_set_unit]
  exact Iff.rfl

/-- The 125 blocks tile the output: entry (e, c) lies in the block of the point whose block number is e / 8000. -/
theorem covered (i : S1000000x64.Idx) :
    ∃ t : Fin cfg1.N, (cfg1.win 4).flush t = true ∧ i ∈ ((cfg1.win 4).blk t).view.set := by
  have hi0 : (i 0).val < 1000000 := (i 0).isLt
  have hi1 : (i 1).val < 64 := (i 1).isLt
  obtain ⟨t, ht⟩ := index_onto ⟨(i 0).val / 8000, by omega⟩
  have q0 : win1_4.index t (0 : Fin 2) = (i 0).val / 8000 := congrFun ht 0
  have q1 : win1_4.index t (1 : Fin 2) = 0 := congrFun ht 1
  refine ⟨t, flush1_4 t, ?_⟩
  rw [mem_block]
  intro a
  match a with
  | ⟨0, _⟩ =>
    show win1_4.index t (0 : Fin 2) * 8000 ≤ (i 0).val ∧ (i 0).val < win1_4.index t (0 : Fin 2) * 8000 + 8000
    omega
  | ⟨1, _⟩ =>
    show win1_4.index t (1 : Fin 2) * 64 ≤ (i 1).val ∧ (i 1).val < win1_4.index t (1 : Fin 2) * 64 + 64
    omega

/-- After the kernel, the output is the message array of the arrays it was entered with. -/
theorem value (c : Dev nD) :
    (dat1 V c).arrAt 4 cfg1.N
      = Cert.Layer.edgeMessage (V c main_v24) (V c main_v25) (V c main_v15) (V c main_v16) :=
  (dat1 V c).arrAt_eq_of_cover 4 _ (fun t _ => flushed_eq V c t) covered

end Cert.KernelIdeal.EdgeMessage1

end
-- ==== Proof.NodeProduct2.lean ====
/-
  The node-domain product kernel, read as a whole array.

  The kernel runs over ten blocks of 10000 rows. At block t it loads rows 10000 t … 10000 t + 9999 of X and all of the
  64 by 64 matrix W, multiplies them into a zero accumulator and stores the product as block t of Y. A change of
  float format is the identity on the extended reals, so entry (p, q) of the stored block is the sum over k of
  X (10000 t + p, k) · W (k, q): block t of the one array `Cert.Layer.nodeProduct X W`. The ten blocks tile Y, so
  after the kernel Y is that array, whatever X and W were when the kernel was entered.
-/
import proofs.«142170_j34368328303045_2_alg».proof.Proof.Gen.KernelIdeal.Frame
import proofs.«142170_j34368328303045_2_alg».proof.Proof.EdgeSpec
import proofs.«142170_j34368328303045_2_alg».proof.Proof.LibMatmulPlain
import Idealize.ShloMosaic.Lib.Pipeline.Value
import Idealize.ShloMosaic.Lib.ValueIdx

set_option maxRecDepth 16384

noncomputable section

open scoped BigOperators

namespace Cert.KernelIdeal.NodeProduct2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The stored block at (p, q): row p of the loaded X block against column q of W. -/
theorem payload_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  have e1 : shapeCast S64x64 x1 shapeCasts_S64x64_S64x64 = x1 := shapeCast_self x1 _
  have e0 : shapeCast S10000x64 x0 shapeCasts_S10000x64_S10000x64 = x0 := shapeCast_self x0 _
  unfold k2_pay1
  rw [e1, e0]
  exact MatmulPlain.matmul_zero_apply (M := 10000) (K := 64) (N := 64) none (truncf .bf16 x0 bitsLt_bf16_f32)
    (truncf .bf16 x1 bitsLt_bf16_f32) (ix2 p q)

/-- The index maps over the grid: X's and Y's row blocks move together, block t is the t-th, and every other block
    coordinate is zero. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the product of the arrays the kernel finds. -/
theorem flushed_eq (c : Dev nD) (t : Fin cfg2.N) :
    (dat2 V c).flushed 2 t
      = ((cfg2.win 2).blk t).view.read (Elt Ideal) (Cert.Layer.nodeProduct (V c main_v33) (V c main_v38)) := by
  show (cfg2.win 2).cut (grid2.coords t) ((dat2 V c).after 2 t) = _
  rw [after2_2]
  unfold out2_2
  rw [View.canon_unit_zero zeros]
  simp only [View.ld_unit_zero (S := S10000x64) zeros, View.ld_unit_zero (S := S64x64) zeros]
  obtain ⟨e0, e1, e2, e3, e4, e5⟩ := index_facts t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = Cert.Layer.nodeProduct (V c main_v33) (V c main_v38) (((cfg2.win 2).blk t).view.emb (ix2 p q))
  refine (payload_apply (iblk2 V c 0 t) (iblk2 V c 1 t) p q).trans ?_
  unfold Cert.Layer.nodeProduct
  refine Finset.sum_congr rfl fun k _ => ?_
  have hx : iblk2 V c 0 t (ix2 p k)
      = V c main_v33 (ix2 ((((cfg2.win 2).blk t).view.emb (ix2 p q)) 0) k) := by
    show V c main_v33 (((cfg2.win 0).blk t).view.emb (ix2 p k)) = _
    refine congrArg (V c main_v33) (funext fun a => Fin.ext ?_)
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 64 + 1 * k.val = k.val
      omega
  have hw : iblk2 V c 1 t (ix2 k q)
      = V c main_v38 (ix2 k ((((cfg2.win 2).blk t).view.emb (ix2 p q)) 1)) := by
    show V c main_v38 (((cfg2.win 1).blk t).view.emb (ix2 k q)) = _
    refine congrArg (V c main_v38) (funext fun a => Fin.ext ?_)
    match a with
    | ⟨0, _⟩ =>
      show win2_1.index t (0 : Fin 2) * 64 + 1 * k.val = k.val
      omega
    | ⟨1, _⟩ =>
      show win2_1.index t (1 : Fin 2) * 64 + 1 * q.val = win2_2.index t (1 : Fin 2) * 64 + 1 * q.val
      omega
  rw [hx, hw]

/-- An entry of Y lies in point t's block exactly when each coordinate lies in the block's range on its axis. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v41).slice (win2_2.rect t)).set ↔ _
  rw [View.set_slice_whole, Rect.mem_set_unit]
  exact Iff.rfl

/-- The ten blocks tile Y: entry (n, c) lies in the block of the point whose block number is n / 10000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- After the kernel, Y is the product of the X and W it was entered with. -/
theorem value (c : Dev nD) :
    (dat2 V c).arrAt 2 cfg2.N = Cert.Layer.nodeProduct (V c main_v33) (V c main_v38) :=
  (dat2 V c).arrAt_eq_of_cover 2 _ (fun t _ => flushed_eq V c t) covered

end Cert.KernelIdeal.NodeProduct2

end
-- ==== Proof.EdgeMessage3.lean ====
/-
  The edge-message kernel, read as a whole array.

  The kernel runs over 125 blocks of 8000 edges. At block t it loads rows 8000 t … 8000 t + 7999 of the gathered
  product rows y and of the edge-attribute column a, and the two one-row arrays w (the edge weight row) and b (the
  bias); it stores, as block t of the output, the larger of (y + a · w) + b and zero, entry by entry, the column a
  and the rows w, b being broadcast across the block. Every entry of the stored block depends only on the entries
  of the inputs at its own row and column, so the block is block t of the one array `Cert.Layer.edgeMessage y a w b`,
  and since the 125 blocks tile the output, after the kernel the output is that array.
-/
import proofs.«142170_j34368328303045_2_alg».proof.Proof.Gen.KernelIdeal.Frame
import proofs.«142170_j34368328303045_2_alg».proof.Proof.EdgeSpec
import Idealize.ShloMosaic.Lib.Pipeline.Value
import Idealize.ShloMosaic.Lib.ValueIdx

set_option maxRecDepth 16384

noncomputable section

open scoped BigOperators

namespace Cert.KernelIdeal.EdgeMessage3

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The stored block at (p, q) from the loaded blocks: the column a read at row p, the rows w and b at column q. -/
theorem payload_apply (x0 : Vec Ideal S8000x64 .bf16) (x1 : Vec Ideal S8000x1 .f32) (x2 x3 : Vec Ideal S1x64 .f32)
    (p : Fin 8000) (q : Fin 64) :
    k3_pay1 (F := Ideal) x0 x1 x2 x3 (ix2 p q)
      = max (x0 (ix2 p q) + x1 (ix2 p (0 : Fin 1)) * x2 (ix2 (0 : Fin 1) q) + x3 (ix2 (0 : Fin 1) q))
          (Ideal.ofBits .f32 0x00000000#32) := by
  have e0 : shapeCast S8000x64 x0 shapeCasts_S8000x64_S8000x64 = x0 := shapeCast_self x0 _
  have e1 : shapeCast S8000x1 x1 shapeCasts_S8000x1_S8000x1 = x1 := shapeCast_self x1 _
  have e2 : shapeCast S1x64 x2 shapeCasts_S1x64_S1x64 = x2 := shapeCast_self x2 _
  have e3 : shapeCast S1x64 x3 shapeCasts_S1x64_S1x64 = x3 := shapeCast_self x3 _
  have bcol : broadcastTo S8000x64 x1 broadcasts_S8000x1_S8000x64 (ix2 p q) = x1 (ix2 p (0 : Fin 1)) :=
    broadcastTo_apply x1 broadcasts_S8000x1_S8000x64 (ix2 p q) (ix2 p (0 : Fin 1))
      (fun a => by match a with | ⟨0, _⟩ => rfl | ⟨1, _⟩ => rfl)
  have brow (x : Vec Ideal S1x64 .f32) :
      broadcastTo S8000x64 x broadcasts_S1x64_S8000x64 (ix2 p q) = x (ix2 (0 : Fin 1) q) :=
    broadcastTo_apply x broadcasts_S1x64_S8000x64 (ix2 p q) (ix2 (0 : Fin 1) q)
      (fun a => by match a with | ⟨0, _⟩ => rfl | ⟨1, _⟩ => rfl)
  unfold k3_pay1
  rw [e0, e1, e2, e3]
  show max ((x0 (ix2 p q) + broadcastTo S8000x64 x1 broadcasts_S8000x1_S8000x64 (ix2 p q)
      * broadcastTo S8000x64 x2 broadcasts_S1x64_S8000x64 (ix2 p q))
      + broadcastTo S8000x64 x3 broadcasts_S1x64_S8000x64 (ix2 p q)) (Ideal.ofBits .f32 0x00000000#32) = _
  rw [bcol, brow x2, brow x3]

/-- The index maps over the grid: the row blocks of y, a and the output move together, and every other block
    coordinate is zero. -/
theorem index_facts : ∀ t : Fin cfg3.N, win3_0.index t (0 : Fin 2) = win3_4.index t (0 : Fin 2)
    ∧ win3_0.index t (1 : Fin 2) = 0 ∧ win3_1.index t (0 : Fin 2) = win3_4.index t (0 : Fin 2)
    ∧ win3_1.index t (1 : Fin 2) = 0 ∧ win3_2.index t (0 : Fin 2) = 0 ∧ win3_2.index t (1 : Fin 2) = 0
    ∧ win3_3.index t (0 : Fin 2) = 0 ∧ win3_3.index t (1 : Fin 2) = 0 ∧ win3_4.index t (1 : Fin 2) = 0 :=
  (by decide +kernel : ∀ t : Fin grid3.N, _)

/-- Every one of the 125 row blocks is some point's. -/
theorem index_onto : ∀ q0 : Fin 125, ∃ t : Fin cfg3.N, win3_4.index t = ![q0.val, 0] :=
  (by decide +kernel : ∀ q0 : Fin 125, ∃ t : Fin grid3.N, win3_4.index t = ![q0.val, 0])

/-- What point t writes back is block t of the message array of the arrays the kernel finds. -/
theorem flushed_eq (c : Dev nD) (t : Fin cfg3.N) :
    (dat3 V c).flushed 4 t = ((cfg3.win 4).blk t).view.read (Elt Ideal)
      (Cert.Layer.edgeMessage (V c main_v48) (V c main_v49) (V c main_v39) (V c main_v40)) := by
  show (cfg3.win 4).cut (grid3.coords t) ((dat3 V c).after 4 t) = _
  rw [after3_4]
  unfold out3_4
  rw [View.canon_unit_zero zeros]
  simp only [View.ld_unit_zero (S := S8000x64) zeros, View.ld_unit_zero (S := S8000x1) zeros,
    View.ld_unit_zero (S := S1x64) zeros]
  obtain ⟨e0, e1, e2, e3, e4, e5, e6, e7, e8⟩ := index_facts t
  funext j
  obtain ⟨p, q, rfl⟩ : ∃ (p : Fin 8000) (q : Fin 64), j = ix2 p q := ⟨j 0, j 1, eq_ix2 j⟩
  show k3_pay1 (F := Ideal) (iblk3 V c 0 t) (iblk3 V c 1 t) (iblk3 V c 2 t) (iblk3 V c 3 t) (ix2 p q)
    = Cert.Layer.edgeMessage (V c main_v48) (V c main_v49) (V c main_v39) (V c main_v40)
        (((cfg3.win 4).blk t).view.emb (ix2 p q))
  refine (payload_apply (iblk3 V c 0 t) (iblk3 V c 1 t) (iblk3 V c 2 t) (iblk3 V c 3 t) p q).trans ?_
  unfold Cert.Layer.edgeMessage
  have h0 : iblk3 V c 0 t (ix2 p q) = V c main_v48 (((cfg3.win 4).blk t).view.emb (ix2 p q)) := by
    show V c main_v48 (((cfg3.win 0).blk t).view.emb (ix2 p q)) = _
    refine congrArg (V c main_v48) (funext fun a => Fin.ext ?_)
    match a with
    | ⟨0, _⟩ =>
      show win3_0.index t (0 : Fin 2) * 8000 + 1 * p.val = win3_4.index t (0 : Fin 2) * 8000 + 1 * p.val
      omega
    | ⟨1, _⟩ =>
      show win3_0.index t (1 : Fin 2) * 64 + 1 * q.val = win3_4.index t (1 : Fin 2) * 64 + 1 * q.val
      omega
  have h1 : iblk3 V c 1 t (ix2 p (0 : Fin 1))
      = V c main_v49 (ix2 ((((cfg3.win 4).blk t).view.emb (ix2 p q)) 0) (0 : Fin 1)) := by
    show V c main_v49 (((cfg3.win 1).blk t).view.emb (ix2 p (0 : Fin 1))) = _
    refine congrArg (V c main_v49) (funext fun a => Fin.ext ?_)
    match a with
    | ⟨0, _⟩ =>
      show win3_1.index t (0 : Fin 2) * 8000 + 1 * p.val = win3_4.index t (0 : Fin 2) * 8000 + 1 * p.val
      omega
    | ⟨1, _⟩ =>
      show win3_1.index t (1 : Fin 2) * 1 + 1 * 0 = 0
      omega
  have h2 : iblk3 V c 2 t (ix2 (0 : Fin 1) q)
      = V c main_v39 (ix2 (0 : Fin 1) ((((cfg3.win 4).blk t).view.emb (ix2 p q)) 1)) := by
    show V c main_v39 (((cfg3.win 2).blk t).view.emb (ix2 (0 : Fin 1) q)) = _
    refine congrArg (V c main_v39) (funext fun a => Fin.ext ?_)
    match a with
    | ⟨0, _⟩ =>
      show win3_2.index t (0 : Fin 2) * 1 + 1 * 0 = 0
      omega
    | ⟨1, _⟩ =>
      show win3_2.index t (1 : Fin 2) * 64 + 1 * q.val = win3_4.index t (1 : Fin 2) * 64 + 1 * q.val
      omega
  have h3 : iblk3 V c 3 t (ix2 (0 : Fin 1) q)
      = V c main_v40 (ix2 (0 : Fin 1) ((((cfg3.win 4).blk t).view.emb (ix2 p q)) 1)) := by
    show V c main_v40 (((cfg3.win 3).blk t).view.emb (ix2 (0 : Fin 1) q)) = _
    refine congrArg (V c main_v40) (funext fun a => Fin.ext ?_)
    match a with
    | ⟨0, _⟩ =>
      show win3_3.index t (0 : Fin 2) * 1 + 1 * 0 = 0
      omega
    | ⟨1, _⟩ =>
      show win3_3.index t (1 : Fin 2) * 64 + 1 * q.val = win3_4.index t (1 : Fin 2) * 64 + 1 * q.val
      omega
  rw [h0, h1, h2, h3]

/-- An entry of the output lies in point t's block exactly when each coordinate lies in the block's range. -/
theorem mem_block (t : Fin cfg3.N) (i : S1000000x64.Idx) :
    i ∈ ((cfg3.win 4).blk t).view.set ↔ ∀ a : Fin 2, win3_4.index t a * S8000x64.size a ≤ (i a).val
      ∧ (i a).val < win3_4.index t a * S8000x64.size a + S8000x64.size a := by
  show i ∈ ((View.whole main_v50).slice (win3_4.rect t)).set ↔ _
  rw [View.set_slice_whole, Rect.mem_set_unit]
  exact Iff.rfl

/-- The 125 blocks tile the output: entry (e, c) lies in the block of the point whose block number is e / 8000. -/
theorem covered (i : S1000000x64.Idx) :
    ∃ t : Fin cfg3.N, (cfg3.win 4).flush t = true ∧ i ∈ ((cfg3.win 4).blk t).view.set := by
  have hi0 : (i 0).val < 1000000 := (i 0).isLt
  have hi1 : (i 1).val < 64 := (i 1).isLt
  obtain ⟨t, ht⟩ := index_onto ⟨(i 0).val / 8000, by omega⟩
  have q0 : win3_4.index t (0 : Fin 2) = (i 0).val / 8000 := congrFun ht 0
  have q1 : win3_4.index t (1 : Fin 2) = 0 := congrFun ht 1
  refine ⟨t, flush3_4 t, ?_⟩
  rw [mem_block]
  intro a
  match a with
  | ⟨0, _⟩ =>
    show win3_4.index t (0 : Fin 2) * 8000 ≤ (i 0).val ∧ (i 0).val < win3_4.index t (0 : Fin 2) * 8000 + 8000
    omega
  | ⟨1, _⟩ =>
    show win3_4.index t (1 : Fin 2) * 64 ≤ (i 1).val ∧ (i 1).val < win3_4.index t (1 : Fin 2) * 64 + 64
    omega

/-- After the kernel, the output is the message array of the arrays it was entered with. -/
theorem value (c : Dev nD) :
    (dat3 V c).arrAt 4 cfg3.N
      = Cert.Layer.edgeMessage (V c main_v48) (V c main_v49) (V c main_v39) (V c main_v40) :=
  (dat3 V c).arrAt_eq_of_cover 4 _ (fun t _ => flushed_eq V c t) covered

end Cert.KernelIdeal.EdgeMessage3

end
-- ==== Proof.Boundaries.lean ====
/-
  The contents of the buffers that matter at every boundary between the segments of the idealized kernel program,
  as terms of the seven argument arrays; at the last boundary the result buffer holds two layers, the first applied
  to the node features and the second to the first's output.

  The boundaries are walked in order. A stretch of host operations computes some buffers from earlier ones and
  leaves the others; a kernel leaves every buffer but its own arrays, and its output array holds the node-domain
  product (first and third kernel) or the edge messages (second and fourth) of the arrays it was entered with.
-/
import proofs.«142170_j34368328303045_2_alg».proof.Proof.HostStages
import proofs.«142170_j34368328303045_2_alg».proof.Proof.NodeProduct0
import proofs.«142170_j34368328303045_2_alg».proof.Proof.EdgeMessage1
import proofs.«142170_j34368328303045_2_alg».proof.Proof.NodeProduct2
import proofs.«142170_j34368328303045_2_alg».proof.Proof.EdgeMessage3

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen Cert.KernelIdeal.Terms Cert.KernelIdeal.HostStage

variable (m : (ℓ : Loc nD τ sig) → Buf (Elt Ideal) ℓ) (ρ : Dev nD → PrngReg) (c : Dev nD)

/-! ## Boundary 1 -/

theorem b1_v9 : (W1 (F := Ideal) m ρ c) (Proc.devRef .tc main_v9) = (countInv (dstVec (m ((c : Thread nD τ).loc main_arg1)))) :=
  (s0_v9 (W0 (F := Ideal) m ρ c)).trans (by rfl)
theorem b1_v11 : (W1 (F := Ideal) m ρ c) (Proc.devRef .tc main_v11) = (srcVec (m ((c : Thread nD τ).loc main_arg1))) :=
  (s0_v11 (W0 (F := Ideal) m ρ c)).trans (by rfl)
theorem b1_v13 : (W1 (F := Ideal) m ρ c) (Proc.devRef .tc main_v13) = (dstVec (m ((c : Thread nD τ).loc main_arg1))) :=
  (s0_v13 (W0 (F := Ideal) m ρ c)).trans (by rfl)
theorem b1_v14 : (W1 (F := Ideal) m ρ c) (Proc.devRef .tc main_v14) = (wTop (m ((c : Thread nD τ).loc main_arg3))) :=
  (s0_v14 (W0 (F := Ideal) m ρ c)).trans (by rfl)
theorem b1_v15 : (W1 (F := Ideal) m ρ c) (Proc.devRef .tc main_v15) = (wLast (m ((c : Thread nD τ).loc main_arg3))) :=
  (s0_v15 (W0 (F := Ideal) m ρ c)).trans (by rfl)
theorem b1_v16 : (W1 (F := Ideal) m ρ c) (Proc.devRef .tc main_v16) = (biasRow (m ((c : Thread nD τ).loc main_arg4))) :=
  (s0_v16 (W0 (F := Ideal) m ρ c)).trans (by rfl)
theorem b1_arg0 : (W1 (F := Ideal) m ρ c) (Proc.devRef .tc main_arg0) = (m ((c : Thread nD τ).loc main_arg0)) :=
  (s0_arg0 (W0 (F := Ideal) m ρ c)).trans rfl
theorem b1_arg1 : (W1 (F := Ideal) m ρ c) (Proc.devRef .tc main_arg1) = (m ((c : Thread nD τ).loc main_arg1)) :=
  (s0_arg1 (W0 (F := Ideal) m ρ c)).trans rfl
theorem b1_arg2 : (W1 (F := Ideal) m ρ c) (Proc.devRef .tc main_arg2) = (m ((c : Thread nD τ).loc main_arg2)) :=
  (s0_arg2 (W0 (F := Ideal) m ρ c)).trans rfl
theorem b1_arg5 : (W1 (F := Ideal) m ρ c) (Proc.devRef .tc main_arg5) = (m ((c : Thread nD τ).loc main_arg5)) :=
  (s0_arg5 (W0 (F := Ideal) m ρ c)).trans rfl
theorem b1_arg6 : (W1 (F := Ideal) m ρ c) (Proc.devRef .tc main_arg6) = (m ((c : Thread nD τ).loc main_arg6)) :=
  (s0_arg6 (W0 (F := Ideal) m ρ c)).trans rfl

/-! ## Boundary 2 -/

theorem b2_v17 : (W2 (F := Ideal) m ρ c) (Proc.devRef .tc main_v17) = (Cert.Layer.nodeProduct (m ((c : Thread nD τ).loc main_arg0)) (wTop (m ((c : Thread nD τ).loc main_arg3)))) :=
  (W2_arr (F := Ideal) m ρ c 2).trans ((NodeProduct0.value (V1 (F := Ideal) m ρ) c).trans (by rw [show V1 (F := Ideal) m ρ c main_arg0 = _ from b1_arg0 m ρ c, show V1 (F := Ideal) m ρ c main_v14 = _ from b1_v14 m ρ c]))
theorem b2_arg1 : (W2 (F := Ideal) m ρ c) (Proc.devRef .tc main_arg1) = (m ((c : Thread nD τ).loc main_arg1)) :=
  (W2_of_ne (F := Ideal) m ρ c main_arg1 (by decide)).trans (b1_arg1 m ρ c)
theorem b2_arg2 : (W2 (F := Ideal) m ρ c) (Proc.devRef .tc main_arg2) = (m ((c : Thread nD τ).loc main_arg2)) :=
  (W2_of_ne (F := Ideal) m ρ c main_arg2 (by decide)).trans (b1_arg2 m ρ c)
theorem b2_arg5 : (W2 (F := Ideal) m ρ c) (Proc.devRef .tc main_arg5) = (m ((c : Thread nD τ).loc main_arg5)) :=
  (W2_of_ne (F := Ideal) m ρ c main_arg5 (by decide)).trans (b1_arg5 m ρ c)
theorem b2_arg6 : (W2 (F := Ideal) m ρ c) (Proc.devRef .tc main_arg6) = (m ((c : Thread nD τ).loc main_arg6)) :=
  (W2_of_ne (F := Ideal) m ρ c main_arg6 (by decide)).trans (b1_arg6 m ρ c)
theorem b2_v9 : (W2 (F := Ideal) m ρ c) (Proc.devRef .tc main_v9) = (countInv (dstVec (m ((c : Thread nD τ).loc main_arg1)))) :=
  (W2_of_ne (F := Ideal) m ρ c main_v9 (by decide)).trans (b1_v9 m ρ c)
theorem b2_v11 : (W2 (F := Ideal) m ρ c) (Proc.devRef .tc main_v11) = (srcVec (m ((c : Thread nD τ).loc main_arg1))) :=
  (W2_of_ne (F := Ideal) m ρ c main_v11 (by decide)).trans (b1_v11 m ρ c)
theorem b2_v13 : (W2 (F := Ideal) m ρ c) (Proc.devRef .tc main_v13) = (dstVec (m ((c : Thread nD τ).loc main_arg1))) :=
  (W2_of_ne (F := Ideal) m ρ c main_v13 (by decide)).trans (b1_v13 m ρ c)
theorem b2_v15 : (W2 (F := Ideal) m ρ c) (Proc.devRef .tc main_v15) = (wLast (m ((c : Thread nD τ).loc main_arg3))) :=
  (W2_of_ne (F := Ideal) m ρ c main_v15 (by decide)).trans (b1_v15 m ρ c)
theorem b2_v16 : (W2 (F := Ideal) m ρ c) (Proc.devRef .tc main_v16) = (biasRow (m ((c : Thread nD τ).loc main_arg4))) :=
  (W2_of_ne (F := Ideal) m ρ c main_v16 (by decide)).trans (b1_v16 m ρ c)

/-! ## Boundary 3 -/

theorem b3_v24 : (W3 (F := Ideal) m ρ c) (Proc.devRef .tc main_v24) = (gathered (Cert.Layer.nodeProduct (m ((c : Thread nD τ).loc main_arg0)) (wTop (m ((c : Thread nD τ).loc main_arg3)))) (srcVec (m ((c : Thread nD τ).loc main_arg1)))) :=
  (s1_v24 (W2 (F := Ideal) m ρ c)).trans (by rw [b2_v17 m ρ c, b2_v11 m ρ c])
theorem b3_v25 : (W3 (F := Ideal) m ρ c) (Proc.devRef .tc main_v25) = (attrCol (m ((c : Thread nD τ).loc main_arg2))) :=
  (s1_v25 (W2 (F := Ideal) m ρ c)).trans (by rw [b2_arg2 m ρ c])
theorem b3_v15 : (W3 (F := Ideal) m ρ c) (Proc.devRef .tc main_v15) = (wLast (m ((c : Thread nD τ).loc main_arg3))) :=
  (s1_v15 (W2 (F := Ideal) m ρ c)).trans (b2_v15 m ρ c)
theorem b3_v16 : (W3 (F := Ideal) m ρ c) (Proc.devRef .tc main_v16) = (biasRow (m ((c : Thread nD τ).loc main_arg4))) :=
  (s1_v16 (W2 (F := Ideal) m ρ c)).trans (b2_v16 m ρ c)
theorem b3_v13 : (W3 (F := Ideal) m ρ c) (Proc.devRef .tc main_v13) = (dstVec (m ((c : Thread nD τ).loc main_arg1))) :=
  (s1_v13 (W2 (F := Ideal) m ρ c)).trans (b2_v13 m ρ c)
theorem b3_v9 : (W3 (F := Ideal) m ρ c) (Proc.devRef .tc main_v9) = (countInv (dstVec (m ((c : Thread nD τ).loc main_arg1)))) :=
  (s1_v9 (W2 (F := Ideal) m ρ c)).trans (b2_v9 m ρ c)
theorem b3_arg1 : (W3 (F := Ideal) m ρ c) (Proc.devRef .tc main_arg1) = (m ((c : Thread nD τ).loc main_arg1)) :=
  (s1_arg1 (W2 (F := Ideal) m ρ c)).trans (b2_arg1 m ρ c)
theorem b3_arg2 : (W3 (F := Ideal) m ρ c) (Proc.devRef .tc main_arg2) = (m ((c : Thread nD τ).loc main_arg2)) :=
  (s1_arg2 (W2 (F := Ideal) m ρ c)).trans (b2_arg2 m ρ c)
theorem b3_arg5 : (W3 (F := Ideal) m ρ c) (Proc.devRef .tc main_arg5) = (m ((c : Thread nD τ).loc main_arg5)) :=
  (s1_arg5 (W2 (F := Ideal) m ρ c)).trans (b2_arg5 m ρ c)
theorem b3_arg6 : (W3 (F := Ideal) m ρ c) (Proc.devRef .tc main_arg6) = (m ((c : Thread nD τ).loc main_arg6)) :=
  (s1_arg6 (W2 (F := Ideal) m ρ c)).trans (b2_arg6 m ρ c)

/-! ## Boundary 4 -/

theorem b4_v26 : (W4 (F := Ideal) m ρ c) (Proc.devRef .tc main_v26) = (Cert.Layer.edgeMessage (gathered (Cert.Layer.nodeProduct (m ((c : Thread nD τ).loc main_arg0)) (wTop (m ((c : Thread nD τ).loc main_arg3)))) (srcVec (m ((c : Thread nD τ).loc main_arg1)))) (attrCol (m ((c : Thread nD τ).loc main_arg2))) (wLast (m ((c : Thread nD τ).loc main_arg3))) (biasRow (m ((c : Thread nD τ).loc main_arg4)))) :=
  (W4_arr (F := Ideal) m ρ c 4).trans ((EdgeMessage1.value (V3 (F := Ideal) m ρ) c).trans (by rw [show V3 (F := Ideal) m ρ c main_v24 = _ from b3_v24 m ρ c, show V3 (F := Ideal) m ρ c main_v25 = _ from b3_v25 m ρ c, show V3 (F := Ideal) m ρ c main_v15 = _ from b3_v15 m ρ c, show V3 (F := Ideal) m ρ c main_v16 = _ from b3_v16 m ρ c]))
theorem b4_v13 : (W4 (F := Ideal) m ρ c) (Proc.devRef .tc main_v13) = (dstVec (m ((c : Thread nD τ).loc main_arg1))) :=
  (W4_of_ne (F := Ideal) m ρ c main_v13 (by decide)).trans (b3_v13 m ρ c)
theorem b4_v9 : (W4 (F := Ideal) m ρ c) (Proc.devRef .tc main_v9) = (countInv (dstVec (m ((c : Thread nD τ).loc main_arg1)))) :=
  (W4_of_ne (F := Ideal) m ρ c main_v9 (by decide)).trans (b3_v9 m ρ c)
theorem b4_arg1 : (W4 (F := Ideal) m ρ c) (Proc.devRef .tc main_arg1) = (m ((c : Thread nD τ).loc main_arg1)) :=
  (W4_of_ne (F := Ideal) m ρ c main_arg1 (by decide)).trans (b3_arg1 m ρ c)
theorem b4_arg2 : (W4 (F := Ideal) m ρ c) (Proc.devRef .tc main_arg2) = (m ((c : Thread nD τ).loc main_arg2)) :=
  (W4_of_ne (F := Ideal) m ρ c main_arg2 (by decide)).trans (b3_arg2 m ρ c)
theorem b4_arg5 : (W4 (F := Ideal) m ρ c) (Proc.devRef .tc main_arg5) = (m ((c : Thread nD τ).loc main_arg5)) :=
  (W4_of_ne (F := Ideal) m ρ c main_arg5 (by decide)).trans (b3_arg5 m ρ c)
theorem b4_arg6 : (W4 (F := Ideal) m ρ c) (Proc.devRef .tc main_arg6) = (m ((c : Thread nD τ).loc main_arg6)) :=
  (W4_of_ne (F := Ideal) m ρ c main_arg6 (by decide)).trans (b3_arg6 m ρ c)

/-! ## Boundary 5 -/

theorem b5_v32 : (W5 (F := Ideal) m ρ c) (Proc.devRef .tc main_v32) = (aggregate (Cert.Layer.edgeMessage (gathered (Cert.Layer.nodeProduct (m ((c : Thread nD τ).loc main_arg0)) (wTop (m ((c : Thread nD τ).loc main_arg3)))) (srcVec (m ((c : Thread nD τ).loc main_arg1)))) (attrCol (m ((c : Thread nD τ).loc main_arg2))) (wLast (m ((c : Thread nD τ).loc main_arg3))) (biasRow (m ((c : Thread nD τ).loc main_arg4)))) (dstVec (m ((c : Thread nD τ).loc main_arg1))) (countInv (dstVec (m ((c : Thread nD τ).loc main_arg1))))) :=
  (s2_v32 (W4 (F := Ideal) m ρ c)).trans (by rw [b4_v26 m ρ c, b4_v13 m ρ c, b4_v9 m ρ c])
theorem b5_v9 : (W5 (F := Ideal) m ρ c) (Proc.devRef .tc main_v9) = (countInv (dstVec (m ((c : Thread nD τ).loc main_arg1)))) :=
  (s2_v9 (W4 (F := Ideal) m ρ c)).trans (b4_v9 m ρ c)
theorem b5_arg1 : (W5 (F := Ideal) m ρ c) (Proc.devRef .tc main_arg1) = (m ((c : Thread nD τ).loc main_arg1)) :=
  (s2_arg1 (W4 (F := Ideal) m ρ c)).trans (b4_arg1 m ρ c)
theorem b5_arg2 : (W5 (F := Ideal) m ρ c) (Proc.devRef .tc main_arg2) = (m ((c : Thread nD τ).loc main_arg2)) :=
  (s2_arg2 (W4 (F := Ideal) m ρ c)).trans (b4_arg2 m ρ c)
theorem b5_arg5 : (W5 (F := Ideal) m ρ c) (Proc.devRef .tc main_arg5) = (m ((c : Thread nD τ).loc main_arg5)) :=
  (s2_arg5 (W4 (F := Ideal) m ρ c)).trans (b4_arg5 m ρ c)
theorem b5_arg6 : (W5 (F := Ideal) m ρ c) (Proc.devRef .tc main_arg6) = (m ((c : Thread nD τ).loc main_arg6)) :=
  (s2_arg6 (W4 (F := Ideal) m ρ c)).trans (b4_arg6 m ρ c)

/-! ## Boundary 6 -/

theorem b6_v33 : (W6 (F := Ideal) m ρ c) (Proc.devRef .tc main_v33) = (layer (m ((c : Thread nD τ).loc main_arg0)) (m ((c : Thread nD τ).loc main_arg1)) (m ((c : Thread nD τ).loc main_arg2)) (m ((c : Thread nD τ).loc main_arg3)) (m ((c : Thread nD τ).loc main_arg4))) :=
  (s2_1_v33 (W5 (F := Ideal) m ρ c)).trans (by rw [b5_v32 m ρ c]; rfl)
theorem b6_v9 : (W6 (F := Ideal) m ρ c) (Proc.devRef .tc main_v9) = (countInv (dstVec (m ((c : Thread nD τ).loc main_arg1)))) :=
  (s2_1_v9 (W5 (F := Ideal) m ρ c)).trans (b5_v9 m ρ c)
theorem b6_arg1 : (W6 (F := Ideal) m ρ c) (Proc.devRef .tc main_arg1) = (m ((c : Thread nD τ).loc main_arg1)) :=
  (s2_1_arg1 (W5 (F := Ideal) m ρ c)).trans (b5_arg1 m ρ c)
theorem b6_arg2 : (W6 (F := Ideal) m ρ c) (Proc.devRef .tc main_arg2) = (m ((c : Thread nD τ).loc main_arg2)) :=
  (s2_1_arg2 (W5 (F := Ideal) m ρ c)).trans (b5_arg2 m ρ c)
theorem b6_arg5 : (W6 (F := Ideal) m ρ c) (Proc.devRef .tc main_arg5) = (m ((c : Thread nD τ).loc main_arg5)) :=
  (s2_1_arg5 (W5 (F := Ideal) m ρ c)).trans (b5_arg5 m ρ c)
theorem b6_arg6 : (W6 (F := Ideal) m ρ c) (Proc.devRef .tc main_arg6) = (m ((c : Thread nD τ).loc main_arg6)) :=
  (s2_1_arg6 (W5 (F := Ideal) m ρ c)).trans (b5_arg6 m ρ c)

/-! ## Boundary 7 -/

theorem b7_v35 : (W7 (F := Ideal) m ρ c) (Proc.devRef .tc main_v35) = (srcVec (m ((c : Thread nD τ).loc main_arg1))) :=
  (s2_2_v35 (W6 (F := Ideal) m ρ c)).trans (by rw [b6_arg1 m ρ c])
theorem b7_v37 : (W7 (F := Ideal) m ρ c) (Proc.devRef .tc main_v37) = (dstVec (m ((c : Thread nD τ).loc main_arg1))) :=
  (s2_2_v37 (W6 (F := Ideal) m ρ c)).trans (by rw [b6_arg1 m ρ c])
theorem b7_v38 : (W7 (F := Ideal) m ρ c) (Proc.devRef .tc main_v38) = (wTop (m ((c : Thread nD τ).loc main_arg5))) :=
  (s2_2_v38 (W6 (F := Ideal) m ρ c)).trans (by rw [b6_arg5 m ρ c])
theorem b7_v39 : (W7 (F := Ideal) m ρ c) (Proc.devRef .tc main_v39) = (wLast (m ((c : Thread nD τ).loc main_arg5))) :=
  (s2_2_v39 (W6 (F := Ideal) m ρ c)).trans (by rw [b6_arg5 m ρ c])
theorem b7_v40 : (W7 (F := Ideal) m ρ c) (Proc.devRef .tc main_v40) = (biasRow (m ((c : Thread nD τ).loc main_arg6))) :=
  (s2_2_v40 (W6 (F := Ideal) m ρ c)).trans (by rw [b6_arg6 m ρ c])
theorem b7_v33 : (W7 (F := Ideal) m ρ c) (Proc.devRef .tc main_v33) = (layer (m ((c : Thread nD τ).loc main_arg0)) (m ((c : Thread nD τ).loc main_arg1)) (m ((c : Thread nD τ).loc main_arg2)) (m ((c : Thread nD τ).loc main_arg3)) (m ((c : Thread nD τ).loc main_arg4))) :=
  (s2_2_v33 (W6 (F := Ideal) m ρ c)).trans (b6_v33 m ρ c)
theorem b7_arg2 : (W7 (F := Ideal) m ρ c) (Proc.devRef .tc main_arg2) = (m ((c : Thread nD τ).loc main_arg2)) :=
  (s2_2_arg2 (W6 (F := Ideal) m ρ c)).trans (b6_arg2 m ρ c)
theorem b7_v9 : (W7 (F := Ideal) m ρ c) (Proc.devRef .tc main_v9) = (countInv (dstVec (m ((c : Thread nD τ).loc main_arg1)))) :=
  (s2_2_v9 (W6 (F := Ideal) m ρ c)).trans (b6_v9 m ρ c)

/-! ## Boundary 8 -/

theorem b8_v41 : (W8 (F := Ideal) m ρ c) (Proc.devRef .tc main_v41) = (Cert.Layer.nodeProduct (layer (m ((c : Thread nD τ).loc main_arg0)) (m ((c : Thread nD τ).loc main_arg1)) (m ((c : Thread nD τ).loc main_arg2)) (m ((c : Thread nD τ).loc main_arg3)) (m ((c : Thread nD τ).loc main_arg4))) (wTop (m ((c : Thread nD τ).loc main_arg5)))) :=
  (W8_arr (F := Ideal) m ρ c 2).trans ((NodeProduct2.value (V7 (F := Ideal) m ρ) c).trans (by rw [show V7 (F := Ideal) m ρ c main_v33 = _ from b7_v33 m ρ c, show V7 (F := Ideal) m ρ c main_v38 = _ from b7_v38 m ρ c]))
theorem b8_v35 : (W8 (F := Ideal) m ρ c) (Proc.devRef .tc main_v35) = (srcVec (m ((c : Thread nD τ).loc main_arg1))) :=
  (W8_of_ne (F := Ideal) m ρ c main_v35 (by decide)).trans (b7_v35 m ρ c)
theorem b8_v37 : (W8 (F := Ideal) m ρ c) (Proc.devRef .tc main_v37) = (dstVec (m ((c : Thread nD τ).loc main_arg1))) :=
  (W8_of_ne (F := Ideal) m ρ c main_v37 (by decide)).trans (b7_v37 m ρ c)
theorem b8_v39 : (W8 (F := Ideal) m ρ c) (Proc.devRef .tc main_v39) = (wLast (m ((c : Thread nD τ).loc main_arg5))) :=
  (W8_of_ne (F := Ideal) m ρ c main_v39 (by decide)).trans (b7_v39 m ρ c)
theorem b8_v40 : (W8 (F := Ideal) m ρ c) (Proc.devRef .tc main_v40) = (biasRow (m ((c : Thread nD τ).loc main_arg6))) :=
  (W8_of_ne (F := Ideal) m ρ c main_v40 (by decide)).trans (b7_v40 m ρ c)
theorem b8_arg2 : (W8 (F := Ideal) m ρ c) (Proc.devRef .tc main_arg2) = (m ((c : Thread nD τ).loc main_arg2)) :=
  (W8_of_ne (F := Ideal) m ρ c main_arg2 (by decide)).trans (b7_arg2 m ρ c)
theorem b8_v9 : (W8 (F := Ideal) m ρ c) (Proc.devRef .tc main_v9) = (countInv (dstVec (m ((c : Thread nD τ).loc main_arg1)))) :=
  (W8_of_ne (F := Ideal) m ρ c main_v9 (by decide)).trans (b7_v9 m ρ c)

/-! ## Boundary 9 -/

theorem b9_v48 : (W9 (F := Ideal) m ρ c) (Proc.devRef .tc main_v48) = (gathered (Cert.Layer.nodeProduct (layer (m ((c : Thread nD τ).loc main_arg0)) (m ((c : Thread nD τ).loc main_arg1)) (m ((c : Thread nD τ).loc main_arg2)) (m ((c : Thread nD τ).loc main_arg3)) (m ((c : Thread nD τ).loc main_arg4))) (wTop (m ((c : Thread nD τ).loc main_arg5)))) (srcVec (m ((c : Thread nD τ).loc main_arg1)))) :=
  (s3_v48 (W8 (F := Ideal) m ρ c)).trans (by rw [b8_v41 m ρ c, b8_v35 m ρ c])
theorem b9_v49 : (W9 (F := Ideal) m ρ c) (Proc.devRef .tc main_v49) = (attrCol (m ((c : Thread nD τ).loc main_arg2))) :=
  (s3_v49 (W8 (F := Ideal) m ρ c)).trans (by rw [b8_arg2 m ρ c])
theorem b9_v39 : (W9 (F := Ideal) m ρ c) (Proc.devRef .tc main_v39) = (wLast (m ((c : Thread nD τ).loc main_arg5))) :=
  (s3_v39 (W8 (F := Ideal) m ρ c)).trans (b8_v39 m ρ c)
theorem b9_v40 : (W9 (F := Ideal) m ρ c) (Proc.devRef .tc main_v40) = (biasRow (m ((c : Thread nD τ).loc main_arg6))) :=
  (s3_v40 (W8 (F := Ideal) m ρ c)).trans (b8_v40 m ρ c)
theorem b9_v37 : (W9 (F := Ideal) m ρ c) (Proc.devRef .tc main_v37) = (dstVec (m ((c : Thread nD τ).loc main_arg1))) :=
  (s3_v37 (W8 (F := Ideal) m ρ c)).trans (b8_v37 m ρ c)
theorem b9_v9 : (W9 (F := Ideal) m ρ c) (Proc.devRef .tc main_v9) = (countInv (dstVec (m ((c : Thread nD τ).loc main_arg1)))) :=
  (s3_v9 (W8 (F := Ideal) m ρ c)).trans (b8_v9 m ρ c)

/-! ## Boundary 10 -/

theorem b10_v50 : (W10 (F := Ideal) m ρ c) (Proc.devRef .tc main_v50) = (Cert.Layer.edgeMessage (gathered (Cert.Layer.nodeProduct (layer (m ((c : Thread nD τ).loc main_arg0)) (m ((c : Thread nD τ).loc main_arg1)) (m ((c : Thread nD τ).loc main_arg2)) (m ((c : Thread nD τ).loc main_arg3)) (m ((c : Thread nD τ).loc main_arg4))) (wTop (m ((c : Thread nD τ).loc main_arg5)))) (srcVec (m ((c : Thread nD τ).loc main_arg1)))) (attrCol (m ((c : Thread nD τ).loc main_arg2))) (wLast (m ((c : Thread nD τ).loc main_arg5))) (biasRow (m ((c : Thread nD τ).loc main_arg6)))) :=
  (W10_arr (F := Ideal) m ρ c 4).trans ((EdgeMessage3.value (V9 (F := Ideal) m ρ) c).trans (by rw [show V9 (F := Ideal) m ρ c main_v48 = _ from b9_v48 m ρ c, show V9 (F := Ideal) m ρ c main_v49 = _ from b9_v49 m ρ c, show V9 (F := Ideal) m ρ c main_v39 = _ from b9_v39 m ρ c, show V9 (F := Ideal) m ρ c main_v40 = _ from b9_v40 m ρ c]))
theorem b10_v37 : (W10 (F := Ideal) m ρ c) (Proc.devRef .tc main_v37) = (dstVec (m ((c : Thread nD τ).loc main_arg1))) :=
  (W10_of_ne (F := Ideal) m ρ c main_v37 (by decide)).trans (b9_v37 m ρ c)
theorem b10_v9 : (W10 (F := Ideal) m ρ c) (Proc.devRef .tc main_v9) = (countInv (dstVec (m ((c : Thread nD τ).loc main_arg1)))) :=
  (W10_of_ne (F := Ideal) m ρ c main_v9 (by decide)).trans (b9_v9 m ρ c)

/-! ## Boundary 11 -/

theorem b11_v56 : (W11 (F := Ideal) m ρ c) (Proc.devRef .tc main_v56) = (aggregate (Cert.Layer.edgeMessage (gathered (Cert.Layer.nodeProduct (layer (m ((c : Thread nD τ).loc main_arg0)) (m ((c : Thread nD τ).loc main_arg1)) (m ((c : Thread nD τ).loc main_arg2)) (m ((c : Thread nD τ).loc main_arg3)) (m ((c : Thread nD τ).loc main_arg4))) (wTop (m ((c : Thread nD τ).loc main_arg5)))) (srcVec (m ((c : Thread nD τ).loc main_arg1)))) (attrCol (m ((c : Thread nD τ).loc main_arg2))) (wLast (m ((c : Thread nD τ).loc main_arg5))) (biasRow (m ((c : Thread nD τ).loc main_arg6)))) (dstVec (m ((c : Thread nD τ).loc main_arg1))) (countInv (dstVec (m ((c : Thread nD τ).loc main_arg1))))) :=
  (s4_v56 (W10 (F := Ideal) m ρ c)).trans (by rw [b10_v50 m ρ c, b10_v37 m ρ c, b10_v9 m ρ c])

/-! ## Boundary 12 -/

theorem b12_v57 : (W12 (F := Ideal) m ρ c) (Proc.devRef .tc main_v57) = (layer (layer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) :=
  (s4_1_v57 (W11 (F := Ideal) m ρ c)).trans (by rw [b11_v56 m ρ c]; rfl)

end Cert.KernelIdeal.Boundary

end
-- ==== Proof.LibRecipScale.lean ====
/-
  Scaling by the reciprocal of a count, over the extended reals.

  A mean over the arriving edges is computed either as the sum divided by M or as the sum times one over M, where M is
  the larger of the count and one. On the extended reals the quotient by a divisor that is not zero is the product
  with its inverse, so the two agree for every sum (finite or not) as soon as M is not zero; and the larger of anything
  and one is at least one, hence not zero. Mathlib and the ideal instance only; no program.
-/
import Idealize.ShloMosaic.PureOps.Ideal

noncomputable section

namespace Idealize.ShloMosaic.RecipScale

open Idealize.ShloMosaic

/-- For a divisor that is not zero, the product with one over it is the quotient by it. -/
theorem mul_one_div (s M : EReal) (hM : M ≠ 0) : s * Ideal.div 1 M = Ideal.div s M := by
  unfold Ideal.div
  rw [if_neg hM, if_neg hM, one_mul]

/-- The larger of anything and one is not zero. -/
theorem max_one_ne_zero (a o : EReal) (ho : o = 1) : max a o ≠ 0 := by
  subst ho
  intro h
  have h1 : (1 : EReal) ≤ max a 1 := le_max_right _ _
  rw [h] at h1
  have h01 : (0 : EReal) < 1 := by exact_mod_cast (zero_lt_one : (0 : ℝ) < 1)
  exact absurd h1 (not_le.mpr h01)

end Idealize.ShloMosaic.RecipScale

end
-- ==== Proof.LayerEntries.lean ====
/-
  The small arrays of a layer read at an entry, and the scale by the count of arriving edges.

  The first 64 weight rows, the last weight row, the bias as a row, the edge attribute as a column and a per-node value
  repeated across the features are each one entry of the array they are cut from. Multiplying a node's sum by one
  over M and dividing it by M are the same when M is not zero, and M, the larger of a count and one, is at least one.
-/
import proofs.«142170_j34368328303045_2_alg».proof.Proof.LayerTerms
import proofs.«142170_j34368328303045_2_alg».proof.Proof.LibRecipScale
import Idealize.ShloMosaic.Lib.IdealHost
import Idealize.ShloMosaic.Lib.Pipeline.Value
import Idealize.ShloMosaic.Lib.ValueIdx

set_option maxRecDepth 16384

noncomputable section

open scoped BigOperators

namespace Cert.LayerLaw

open Idealize.ShloMosaic Idealize.ShloMosaic.TcCoe Idealize.ShloMosaic.ValueIdx Idealize.SL.Sem
open Cert.KernelIdeal Cert.KernelIdeal.Gen Cert.KernelIdeal.Terms
open Idealize.ShloMosaic.RecipScale

/-! ## The small arrays read at an entry -/

/-- Row k of the first 64 weight rows is row k of the weight matrix. -/
theorem wTop_apply (w : FVec Ideal S65x64 .f32) (k q : Fin 64) :
    wTop w (ix2 k q) = w (ix2 (Fin.castSucc k : Fin 65) q) := by
  unfold wTop
  exact extractStridedSlice_apply ![0, 0] w slices_S65x64_S64x64_0_0 (ix2 k q) (ix2 (Fin.castSucc k : Fin 65) q)
    (fun a => by
      match a with
      | ⟨0, _⟩ => show k.val = 0 + k.val; omega
      | ⟨1, _⟩ => show q.val = 0 + q.val; omega)

/-- The last weight row is row 64 of the weight matrix. -/
theorem wLast_apply (w : FVec Ideal S65x64 .f32) (q : Fin 64) :
    wLast w (ix2 (0 : Fin 1) q) = w (ix2 (Fin.last 64 : Fin 65) q) := by
  unfold wLast
  exact extractStridedSlice_apply ![64, 0] w slices_S65x64_S1x64_64_0 (ix2 (0 : Fin 1) q) (ix2 (Fin.last 64 : Fin 65) q)
    (fun a => by
      match a with
      | ⟨0, _⟩ => show 64 = 64 + 0; rfl
      | ⟨1, _⟩ => show q.val = 0 + q.val; omega)

/-- The attribute column at edge e is the attribute of e. -/
theorem attrCol_apply (ea : FVec Ideal S1000000 .f32) (e : Fin 1000000) :
    attrCol ea (ix2 e (0 : Fin 1)) = ea (ix1 e) := by
  unfold attrCol
  exact shapeCast_apply ea shapeCasts_S1000000_S1000000x1 (ix2 e (0 : Fin 1)) (ix1 e)
    (by rw [Shape.rowMajor_val_one, Shape.rowMajor_val_two]; show e.val = e.val * 1 + 0; omega)

/-- The bias row at column q is the bias of q. -/
theorem biasRow_apply (b : FVec Ideal S64 .f32) (q : Fin 64) :
    biasRow b (ix2 (0 : Fin 1) q) = b (ix1 q) := by
  unfold biasRow
  exact shapeCast_apply b shapeCasts_S64_S1x64 (ix2 (0 : Fin 1) q) (ix1 q)
    (by rw [Shape.rowMajor_val_one, Shape.rowMajor_val_two]; show q.val = 0 * 64 + q.val; omega)

/-- A per-node value repeated across the features, at (n, q), is the value at n. -/
theorem perNode_apply (v : FVec Ideal S100000 .f32) (n : Fin 100000) (q : Fin 64) :
    perNode v (ix2 n q) = v (ix1 n) := by
  unfold perNode
  refine (broadcastInDim_apply ![0, 1] bcast_S100000x1_S100000x64_0_1 _ (ix2 n q) (ix2 n (0 : Fin 1)) (fun a => by
    match a with
    | ⟨0, _⟩ => show n.val = if (100000 : Nat) = 1 then 0 else n.val; rw [if_neg (by decide)]
    | ⟨1, _⟩ => show 0 = if (1 : Nat) = 1 then 0 else q.val; rw [if_pos rfl])).trans ?_
  exact broadcastInDim_apply ![0] bcast_S100000_S100000x1_0 v (ix2 n (0 : Fin 1)) (ix1 n) (fun a => by
    match a with
    | ⟨0, _⟩ => show n.val = if (100000 : Nat) = 1 then 0 else n.val; rw [if_neg (by decide)])

/-! ## The scale -/

/-- The array of ones holds the extended real one. -/
theorem onesN_apply (j : S100000.Idx) : onesN j = 1 := by
  unfold onesN
  refine (broadcastInDim_apply ![] bcast_S_S100000 _ j ix0 (fun a => a.elim0)).trans ?_
  rw [constant_apply]
  exact Ideal.ofBits_one_f32

/-- The larger of a count and one is not zero. -/
theorem countMax_ne_zero (d : IVec S1000000 32) (j : S100000.Idx) : countMax d j ≠ 0 := by
  unfold countMax
  rw [maximumf_apply]
  exact max_one_ne_zero _ _ (onesN_apply j)

/-- Multiplying the node sums by one over the count is dividing them by the count. -/
theorem scale_eq (S : FVec Ideal S100000x64 .f32) (d : IVec S1000000 32) :
    mulf S (perNode (countInv d)) = Host.divf S (perNode (countMax d)) := by
  funext i
  obtain ⟨n, q, rfl⟩ : ∃ (n : Fin 100000) (q : Fin 64), i = ix2 n q := ⟨i 0, i 1, eq_ix2 i⟩
  rw [mulf_apply, hostDivf_apply, perNode_apply, perNode_apply]
  unfold countInv
  rw [hostDivf_apply, onesN_apply]
  exact mul_one_div _ _ (countMax_ne_zero d (ix1 n))

end Cert.LayerLaw

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«142170_j34368328303045_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibConcatCols.lean ====
/-
  Two matrices with the same number of rows joined side by side, read at an entry.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- An `[n, a]` matrix and an `[n, b]` matrix joined along the columns into `[n, a + b]` read, at `(p, q)`, the
    first at `(p, q)` when `q` is one of the first `a` columns and the second at `(p, q − a)` otherwise: the
    case split of `Fin (a + b)` into its two ranges. Arbitrary extents and element type. -/
theorem concat_cols_apply {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (q : Fin (a + b)) :
    concatenate (⟨2, ![n, a + b]⟩ : Shape) 1 [⟨(⟨2, ![n, a]⟩ : Shape), x₁⟩, ⟨(⟨2, ![n, b]⟩ : Shape), x₂⟩] h (ix2 p q)
      = Fin.addCases (motive := fun _ => α) (fun k => x₁ (ix2 p k)) (fun k => x₂ (ix2 p k)) q := by
  refine Fin.addCases (fun k => ?_) (fun k => ?_) q
  · rw [Fin.addCases_left]
    exact concatenate_pair_apply_left 1 x₁ x₂ h (ix2 p (Fin.castAdd b k)) rfl (ix2 p k)
      (fun ax => by match ax with | ⟨0, _⟩ => rfl | ⟨1, _⟩ => rfl)
  · rw [Fin.addCases_right]
    exact concatenate_pair_apply_right 1 x₁ x₂ h (ix2 p (Fin.natAdd a k)) rfl rfl (ix2 p k)
      (fun ax hax => by match ax with | ⟨0, _⟩ => rfl | ⟨1, _⟩ => exact absurd rfl hax)
      (by show k.val + a = a + k.val; exact Nat.add_comm _ _)

end Idealize.ShloMosaic.ConcatCols

end
-- ==== Proof.LayerMessage.lean ====
/-
  The two programs' edge messages are one array.

  The reference gathers the feature rows at the sources, appends the edge attribute as a 65th column, multiplies by
  the 65-row weight matrix, adds the bias and keeps the larger of that and zero. The kernel program multiplies the
  features by the first 64 weight rows first and gathers afterwards; the gather only picks rows, so entry (e, c) of its
  gathered product is the sum over k < 64 of x (src e, k) · w (k, c), and the reference's sum over the 65 columns is
  that sum plus the last term a e · w (64, c). Nothing but the shape of a sum over 65 = 64 + 1 terms is used.
-/
import proofs.«142170_j34368328303045_2_alg».proof.Proof.LayerEntries
import proofs.«142170_j34368328303045_2_alg».proof.Proof.Gen.ReferenceIdeal.Read
import proofs.«142170_j34368328303045_2_alg».proof.Proof.LibHostDotPlain
import proofs.«142170_j34368328303045_2_alg».proof.Proof.LibGatherRows
import proofs.«142170_j34368328303045_2_alg».proof.Proof.LibConcatCols
import Idealize.ShloMosaic.Lib.IdealHost
import Idealize.ShloMosaic.Lib.Pipeline.Value
import Idealize.ShloMosaic.Lib.ValueIdx

set_option maxRecDepth 16384

noncomputable section

open scoped BigOperators

namespace Cert.LayerLaw

open Idealize.ShloMosaic Idealize.ShloMosaic.TcCoe Idealize.ShloMosaic.ValueIdx Idealize.SL.Sem
open Cert.KernelIdeal Cert.KernelIdeal.Gen Cert.KernelIdeal.Terms

/-! ## The messages -/

/-- The reference's source column is the kernel program's. -/
theorem srcCol_eq (ei : IVec S2x1000000 32) : Cert.ReferenceIdeal.Read.val_main_v9 (F := Ideal) ei = wrapCol (srcVec ei) := rfl

/-- The two programs' message arrays are equal. -/
theorem message_eq (x : FVec Ideal S100000x64 .f32) (ei : IVec S2x1000000 32) (ea : FVec Ideal S1000000 .f32)
    (w : FVec Ideal S65x64 .f32) (b : FVec Ideal S64 .f32) :
    Cert.Layer.edgeMessage (gathered (Cert.Layer.nodeProduct x (wTop w)) (srcVec ei)) (attrCol ea) (wLast w) (biasRow b)
      = Cert.ReferenceIdeal.Read.val_main_v17 (F := Ideal) x ei ea w b := by
  funext i
  obtain ⟨e, q, rfl⟩ : ∃ (e : Fin 1000000) (q : Fin 64), i = ix2 e q := ⟨i 0, i 1, eq_ix2 i⟩
  -- the reference's entry
  rw [Cert.ReferenceIdeal.Read.val_main_v17_apply, Cert.ReferenceIdeal.Read.val_main_v16_apply, Cert.ReferenceIdeal.Read.val_main_v13_apply, Cert.ReferenceIdeal.Read.val_main_v15_apply,
    Cert.ReferenceIdeal.Read.val_main_v14_apply, Cert.ReferenceIdeal.Read.val_main_call0_v0_apply, Cert.ReferenceIdeal.Read.val_main_call0_cst_apply]
  have hl (k : Fin 65) : Cert.ReferenceIdeal.Read.lidx_main_v13 (ix2 e q) k = ix2 e k :=
    funext fun a => Fin.ext (by match a with | ⟨0, _⟩ => rfl | ⟨1, _⟩ => rfl)
  have hr (k : Fin 65) : Cert.ReferenceIdeal.Read.ridx_main_v13 (ix2 e q) k = ix2 k q :=
    funext fun a => Fin.ext (by match a with | ⟨0, _⟩ => rfl | ⟨1, _⟩ => rfl)
  have hb : Cert.ReferenceIdeal.Read.idx_main_v14 (Cert.ReferenceIdeal.Read.idx_main_v15 (ix2 e q)) = ix1 q :=
    funext fun a => Fin.ext (by match a with | ⟨0, _⟩ => rfl)
  simp only [hl, hr, hb]
  -- the joined array at (e, k): a gathered feature for k < 64, the attribute for k = 64
  have hcat (k : Fin 65) : Cert.ReferenceIdeal.Read.val_main_v12 (F := Ideal) x ei ea (ix2 e k)
      = Fin.addCases (motive := fun _ => EReal)
          (fun k' : Fin 64 => x (ix2 (GatherRows.rowOf (N := 100000) (by decide) (wrapCol (srcVec ei)) e) k'))
          (fun _ : Fin 1 => ea (ix1 e)) k := by
    unfold Cert.ReferenceIdeal.Read.val_main_v12
    refine (ConcatCols.concat_cols_apply (n := 1000000) (a := 64) (b := 1) _ _ _ e k).trans ?_
    congr 1
    · funext k'
      unfold Cert.ReferenceIdeal.Read.val_main_v10
      rw [srcCol_eq]
      exact GatherRows.gather_rows_apply (N := 100000) (R := 1000000) (C := 64) (by decide) _ x (wrapCol (srcVec ei)) e k'
    · funext k'
      rw [Cert.ReferenceIdeal.Read.val_main_v11_apply]
      exact congrArg ea (funext fun a => Fin.ext (by match a with | ⟨0, _⟩ => rfl))
  -- the kernel program's entry
  unfold Cert.Layer.edgeMessage
  have hg : gathered (Cert.Layer.nodeProduct x (wTop w)) (srcVec ei) (ix2 e q)
      = ∑ k : Fin 64, x (ix2 (GatherRows.rowOf (N := 100000) (by decide) (wrapCol (srcVec ei)) e) k) * w (ix2 (Fin.castSucc k : Fin 65) q) := by
    unfold gathered
    refine (GatherRows.gather_rows_apply (N := 100000) (R := 1000000) (C := 64) (by decide) _ _ (wrapCol (srcVec ei)) e q).trans ?_
    unfold Cert.Layer.nodeProduct
    exact Finset.sum_congr rfl fun k _ => by rw [wTop_apply]
  show max (gathered (Cert.Layer.nodeProduct x (wTop w)) (srcVec ei) (ix2 e q) + attrCol ea (ix2 e (0 : Fin 1)) * wLast w (ix2 (0 : Fin 1) q)
      + biasRow b (ix2 (0 : Fin 1) q)) (Ideal.ofBits .f32 0x00000000#32)
    = max ((∑ k : Fin 65, Cert.ReferenceIdeal.Read.val_main_v12 (F := Ideal) x ei ea (ix2 e k) * w (ix2 k q)) + b (ix1 q)) (Ideal.ofBits .f32 0x00000000#32)
  rw [hg, attrCol_apply, wLast_apply, biasRow_apply]
  simp only [hcat]
  conv_rhs => rw [Fin.sum_univ_castSucc]
  have hleft (k : Fin 64) : Fin.addCases (motive := fun _ => EReal)
      (fun k' : Fin 64 => x (ix2 (GatherRows.rowOf (N := 100000) (by decide) (wrapCol (srcVec ei)) e) k'))
      (fun _ : Fin 1 => ea (ix1 e)) (Fin.castSucc k : Fin 65)
      = x (ix2 (GatherRows.rowOf (N := 100000) (by decide) (wrapCol (srcVec ei)) e) k) :=
    Fin.addCases_left k
  have hright : Fin.addCases (motive := fun _ => EReal)
      (fun k' : Fin 64 => x (ix2 (GatherRows.rowOf (N := 100000) (by decide) (wrapCol (srcVec ei)) e) k'))
      (fun _ : Fin 1 => ea (ix1 e)) (Fin.last 64 : Fin 65) = ea (ix1 e) :=
    Fin.addCases_right (0 : Fin 1)
  simp only [hleft, hright]

end Cert.LayerLaw

end
-- ==== Proof.LayerLaw.lean ====
/-
  One layer is the same function of its arguments in both programs, over the extended reals, and the reference's
  result is that layer applied twice.

  The two programs' message arrays are equal (the node-domain product gathered is the gathered rows multiplied), so
  their sums at the destinations are equal; the kernel program multiplies each node's sum by one over M and the
  reference divides it by M, where M, the larger of the count of arriving edges and one, is not zero: both are the
  product with the inverse of M. The remaining pieces — the zeros, the destination column, the count — are the same
  operations of the same arrays in both programs.
-/
import proofs.«142170_j34368328303045_2_alg».proof.Proof.LayerMessage
import proofs.«142170_j34368328303045_2_alg».proof.Proof.Gen.ReferenceIdeal.Read
import proofs.«142170_j34368328303045_2_alg».proof.Proof.LibHostDotPlain
import proofs.«142170_j34368328303045_2_alg».proof.Proof.LibGatherRows
import proofs.«142170_j34368328303045_2_alg».proof.Proof.LibConcatCols
import Idealize.ShloMosaic.Lib.IdealHost
import Idealize.ShloMosaic.Lib.Pipeline.Value
import Idealize.ShloMosaic.Lib.ValueIdx

set_option maxRecDepth 16384

noncomputable section

open scoped BigOperators

namespace Cert.LayerLaw

open Idealize.ShloMosaic Idealize.ShloMosaic.TcCoe Idealize.ShloMosaic.ValueIdx Idealize.SL.Sem
open Cert.KernelIdeal Cert.KernelIdeal.Gen Cert.KernelIdeal.Terms

/-! ## One layer -/

/-- Both programs start their sums from the same zeros, -/
theorem zeros_eq : zerosNC = Cert.ReferenceIdeal.Read.val_main_v18 (F := Ideal) := rfl

/-- scatter to the same destination column, -/
theorem dstCol_eq (ei : IVec S2x1000000 32) : asCol (dstVec ei) = Cert.ReferenceIdeal.Read.val_main_v19 (F := Ideal) ei := rfl

/-- so equal messages give equal sums at the destinations. -/
theorem sums_eq (x : FVec Ideal S100000x64 .f32) (ei : IVec S2x1000000 32) (ea : FVec Ideal S1000000 .f32)
    (w : FVec Ideal S65x64 .f32) (b : FVec Ideal S64 .f32) :
    Host.scatterAdd scatter_S100000x64_S1000000x1_S1000000x64_1_0_0_1 zerosNC (asCol (dstVec ei))
        (Cert.ReferenceIdeal.Read.val_main_v17 (F := Ideal) x ei ea w b)
      = Cert.ReferenceIdeal.Read.val_main_v20 (F := Ideal) x ei ea w b := by
  unfold Cert.ReferenceIdeal.Read.val_main_v20
  rw [← zeros_eq, ← dstCol_eq]
  rfl

/-- The count of arriving edges, or one, is the same array in both programs, -/
theorem countMax_eq (ei : IVec S2x1000000 32) : countMax (dstVec ei) = Cert.ReferenceIdeal.Read.val_main_v26 (F := Ideal) ei := rfl

/-- and so is its repetition across the features. -/
theorem perNode_eq (ei : IVec S2x1000000 32) :
    perNode (Cert.ReferenceIdeal.Read.val_main_v26 (F := Ideal) ei) = Cert.ReferenceIdeal.Read.val_main_v28 (F := Ideal) ei := rfl

/-- The zeros of the last maximum are the same. -/
theorem zeros_eq' : zerosNC = Cert.ReferenceIdeal.Read.val_main_call1_v0 (F := Ideal) := rfl

/-- A layer of the kernel program is the reference's layer (its first layer's term, read at any arguments). -/
theorem layer_eq (x : FVec Ideal S100000x64 .f32) (ei : IVec S2x1000000 32) (ea : FVec Ideal S1000000 .f32)
    (w : FVec Ideal S65x64 .f32) (b : FVec Ideal S64 .f32) :
    layer x ei ea w b = Cert.ReferenceIdeal.Read.val_main_v30 (F := Ideal) x ei ea w b := by
  unfold layer aggregate
  rw [message_eq, scale_eq, sums_eq, countMax_eq, perNode_eq]
  unfold Cert.ReferenceIdeal.Read.val_main_v30 Cert.ReferenceIdeal.Read.val_main_v29
  rw [← zeros_eq']

end Cert.LayerLaw

end
-- ==== Proof.ReferenceTwice.lean ====
/-
  The reference's result is its layer applied twice.

  The reference's second layer is the same sequence of operations as its first, applied to the first layer's output
  and the second weights and bias; so the term of the result, as a function of the seven arguments, is the first
  layer's term read at (first layer's output, edge list, edge attribute, second weights, second bias).
-/
import proofs.«142170_j34368328303045_2_alg».proof.Proof.Gen.ReferenceIdeal.Read

set_option maxRecDepth 16384

noncomputable section

namespace Cert.ReferenceIdeal.Twice

open Idealize.ShloMosaic Idealize.ShloMosaic.TcCoe Idealize.SL.Sem
open Cert.ReferenceIdeal Cert.ReferenceIdeal.Gen Cert.ReferenceIdeal.Read

/-- The reference's result is its layer applied twice. -/
theorem reference_eq (x : FVec Ideal S100000x64 .f32) (ei : IVec S2x1000000 32) (ea : FVec Ideal S1000000 .f32)
    (w1 : FVec Ideal S65x64 .f32) (b1 : FVec Ideal S64 .f32) (w2 : FVec Ideal S65x64 .f32) (b2 : FVec Ideal S64 .f32) :
    val_main_v61 (F := Ideal) x ei ea w1 b1 w2 b2
      = val_main_v30 (F := Ideal) (val_main_v30 (F := Ideal) x ei ea w1 b1) ei ea w2 b2 := rfl

end Cert.ReferenceIdeal.Twice

end
-- ==== Proof.lean ====
/-
  The certificate of a two-layer message-passing network: the kernel program against its reference, over the
  extended reals.

  Both programs compute, twice in a row, the layer that sends along every edge the message
  relu (x[src] · W + a · w + b), sums the messages arriving at each node, divides by the number of arriving edges (or
  by one where none arrives) and keeps the larger of that and zero. The kernel program forms the node-domain product
  x · W in one kernel before gathering, forms the messages in a second kernel, and multiplies by the reciprocal of the
  count; the reference gathers first, multiplies the joined 65-column rows, and divides. The two are the same
  function of the arguments (`Cert.LayerLaw.layer_eq`), whatever the arguments hold, so the precondition is never
  opened. The kernel program's result is read off its run segment by segment (`Cert.KernelIdeal.Boundary`), the
  reference's off its run; the ideal pass rewrote nothing, so the preservation conjunct is trivial.
-/
import proofs.«142170_j34368328303045_2_alg».proof.Defs
import proofs.«142170_j34368328303045_2_alg».proof.Proof.Gen.Kernel
import proofs.«142170_j34368328303045_2_alg».proof.Proof.Gen.Kernel.Skeleton
import proofs.«142170_j34368328303045_2_alg».proof.Proof.Gen.Kernel.Launch
import proofs.«142170_j34368328303045_2_alg».proof.Proof.Gen.Kernel.Points
import proofs.«142170_j34368328303045_2_alg».proof.Proof.Gen.Kernel.Frame
import proofs.«142170_j34368328303045_2_alg».proof.Proof.Gen.KernelIdeal
import proofs.«142170_j34368328303045_2_alg».proof.Proof.Gen.KernelIdeal.Skeleton
import proofs.«142170_j34368328303045_2_alg».proof.Proof.Gen.KernelIdeal.Launch
import proofs.«142170_j34368328303045_2_alg».proof.Proof.Gen.KernelIdeal.Points
import proofs.«142170_j34368328303045_2_alg».proof.Proof.Gen.KernelIdeal.Frame
import proofs.«142170_j34368328303045_2_alg».proof.Proof.Gen.ReferenceIdeal
import proofs.«142170_j34368328303045_2_alg».proof.Proof.Gen.Pre_finite_inputs
import proofs.«142170_j34368328303045_2_alg».proof.Proof.Gen.ReferenceIdeal.Run
import proofs.«142170_j34368328303045_2_alg».proof.Proof.Gen.ReferenceIdeal.Read
import proofs.«142170_j34368328303045_2_alg».proof.Proof.NamedRun
import proofs.«142170_j34368328303045_2_alg».proof.Proof.Boundaries
import proofs.«142170_j34368328303045_2_alg».proof.Proof.LayerLaw
import proofs.«142170_j34368328303045_2_alg».proof.Proof.ReferenceTwice
import Idealize.ShloMosaic.Adequacy
import Idealize.ShloMosaic.Init

set_option maxRecDepth 16384

noncomputable section

namespace Cert.Proof

open Idealize.ShloMosaic Idealize.SL.Sem

/-- The word-level kernel program runs and leaves its arguments. -/
theorem frame_kernel : Cert.frame_Kernel := fun m ρ _ => Cert.Kernel.Gen.frame m ρ

/-- The idealized kernel program runs and leaves its arguments. -/
theorem frame_kernelIdeal : Cert.frame_KernelIdeal := fun m ρ _ => Cert.KernelIdeal.Gen.frame m ρ

/-- The idealized reference runs and leaves its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the two layers of the agreed arguments. -/
theorem algebraic : Cert.algebraic_KernelIdeal_ReferenceIdeal := by
  intro m ρ m' ρ' _ hagree
  refine ⟨fun c => Cert.KernelIdeal.Terms.layer
      (Cert.KernelIdeal.Terms.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundary.b12_v57 m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2.1, (hagree c).2.2.2.2.2.2]
    beta_reduce
    rw [Cert.LayerLaw.layer_eq, Cert.LayerLaw.layer_eq]
    exact Cert.ReferenceIdeal.Twice.reference_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
